-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S2x500000 : Shape := ⟨2, ![2, 500000]⟩
abbrev S1000000 : Shape := ⟨1, ![1000000]⟩
abbrev S500000 : Shape := ⟨1, ![500000]⟩
abbrev S100000x64 : Shape := ⟨2, ![100000, 64]⟩
abbrev S128x32 : Shape := ⟨2, ![128, 32]⟩
abbrev S32 : Shape := ⟨1, ![32]⟩
abbrev S96x32 : Shape := ⟨2, ![96, 32]⟩
abbrev S64x64 : Shape := ⟨2, ![64, 64]⟩
abbrev S64 : Shape := ⟨1, ![64]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S500000 : S_.BroadcastsInDim S500000 (![] : Fin 0 → Fin S500000.rank)
  reducesTo_S500000_S_d0 : S500000.ReducesTo [0] S_
  bcast_S_S100000x64 : S_.BroadcastsInDim S100000x64 (![] : Fin 0 → Fin S100000x64.rank)
  reducesTo_S100000x64_S_d0_1 : S100000x64.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S96x32 : S_.BroadcastsInDim S96x32 (![] : Fin 0 → Fin S96x32.rank)
  reducesTo_S96x32_S_d0_1 : S96x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64x64 .f32) (main_arg14 : FVec F S64 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S96x32 .f32) (main_arg10 : FVec F S32 .f32) (main_arg11 : FVec F S96x32 .f32) (main_arg12 : FVec F S32 .f32) (main_arg13 : FVec F S64x64 .f32) (main_arg14 : FVec F S64 .f32) (main_v33 : IVec S_ 1) : IVec S_ 1 :=
  let main_v34 : FVec F S96x32 .f32 := Host.absf main_arg9
  let main_cst_12 : FVec F S_ .f32 := constant S_ .f32 0x7F800000#32
  let main_v35 : FVec F S96x32 .f32 := broadcastInDim S96x32 ![] bcast_S_S96x32 main_cst_12
  let main_v36 : IVec S96x32 1 := cmpf .olt main_v34 main_v35
  let main_c_13 : IVec S_ 1 := constantI S_ 1 1#1
  let main_v37 : IVec S_ 1 := (fun x v => Host.reduce IntOp.andi x v reducesTo_S96x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S96x32 .f32 := Host.absf main_arg11
  let main_cst_16 : FVec F S_ .f32 := constant S_ .f32 0x7F800000#32
  let main_v45 : FVec F S96x32 .f32 := broadcastInDim S96x32 ![] bcast_S_S96x32 main_cst_16
  let main_v46 : IVec S96x32 1 := cmpf .olt main_v44 main_v45
  let main_c_17 : IVec S_ 1 := constantI S_ 1 1#1
  let main_v47 : IVec S_ 1 := (fun x v => Host.reduce IntOp.andi x v reducesTo_S96x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_v48 main_v49 main_v50

def fn_part1 {F : FTy → Type} [FloatOps F] (main_arg6 : FVec F S32 .f32) (main_arg7 : FVec F S128x32 .f32) (main_arg8 : FVec F S32 .f32) (main_arg9 : FVec F S96x32 .f32) (main_arg10 : FVec F S32 .f32) (main_arg11 : FVec F S96x32 .f32) (main_arg12 : FVec F S32 .f32) (main_arg13 : FVec F S64x64 .f32) (main_arg14 : FVec F S64 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S128x32 .f32 := Host.absf main_arg7
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : IVec S2x1000000 32) (main_arg1 : IVec S2x500000 32) (main_arg2 : FVec F S1000000 .f32) (main_arg3 : FVec F S500000 .f32) (main_arg4 : FVec F S100000x64 .f32) (main_arg5 : FVec F S128x32 .f32) (main_arg6 : FVec F S32 .f32) (main_arg7 : FVec F S128x32 .f32) (main_arg8 : FVec F S32 .f32) (main_arg9 : FVec F S96x32 .f32) (main_arg10 : FVec F S32 .f32) (main_arg11 : FVec F S96x32 .f32) (main_arg12 : FVec F S32 .f32) (main_arg13 : FVec F S64x64 .f32) (main_arg14 : FVec F S64 .f32) : IVec S_ 1 :=
  let main_v0 : FVec F S1000000 .f32 := Host.absf main_arg2
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S500000 .f32 := Host.absf main_arg3
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S100000x64 .f32 := Host.absf main_arg4
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S128x32 .f32 := Host.absf main_arg5
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg6 main_arg7 main_arg8 main_arg9 main_arg10 main_arg11 main_arg12 main_arg13 main_arg14 main_v13 main_v16
-- ==== Kernel.lean ====
abbrev S2x1000000 : Shape := ⟨2, ![2, 1000000]⟩
abbrev S2x500000 : Shape := ⟨2, ![2, 500000]⟩
abbrev S1000000 : Shape := ⟨1, ![1000000]⟩
abbrev S500000 : Shape := ⟨1, ![500000]⟩
abbrev S100000x64 : Shape := ⟨2, ![100000, 64]⟩
abbrev S128x32 : Shape := ⟨2, ![128, 32]⟩
abbrev S32 : Shape := ⟨1, ![32]⟩
abbrev S96x32 : Shape := ⟨2, ![96, 32]⟩
abbrev S64x64 : Shape := ⟨2, ![64, 64]⟩
abbrev S64 : Shape := ⟨1, ![64]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x500000 : Shape := ⟨2, ![1, 500000]⟩
abbrev S500000x1 : Shape := ⟨2, ![500000, 1]⟩
abbrev S500000x64 : Shape := ⟨2, ![500000, 64]⟩
abbrev S100000x32 : Shape := ⟨2, ![100000, 32]⟩
abbrev S5000x64 : Shape := ⟨2, ![5000, 64]⟩
abbrev S5000x32 : Shape := ⟨2, ![5000, 32]⟩
abbrev S64x32 : Shape := ⟨2, ![64, 32]⟩
abbrev S1x32 : Shape := ⟨2, ![1, 32]⟩
abbrev S1000000x32 : Shape := ⟨2, ![1000000, 32]⟩
abbrev S500000x32 : Shape := ⟨2, ![500000, 32]⟩
abbrev S32x32 : Shape := ⟨2, ![32, 32]⟩
abbrev S32x64 : Shape := ⟨2, ![32, 64]⟩
abbrev S1x64 : Shape := ⟨2, ![1, 64]⟩

abbrev nBuf : Space → Nat
  | .hbm => 198
  | .vmem => 34
  | .smem => 0
  | _ => 0

abbrev hbmTy0_0 (i : Nat) : BufTy := match i % 128 with
  | 0 => ⟨S2x1000000, .i32⟩
  | 1 => ⟨S2x500000, .i32⟩
  | 2 => ⟨S1000000, .f32⟩
  | 3 => ⟨S500000, .f32⟩
  | 4 => ⟨S100000x64, .f32⟩
  | 5 => ⟨S128x32, .f32⟩
  | 6 => ⟨S32, .f32⟩
  | 7 => ⟨S128x32, .f32⟩
  | 8 => ⟨S32, .f32⟩
  | 9 => ⟨S96x32, .f32⟩
  | 10 => ⟨S32, .f32⟩
  | 11 => ⟨S96x32, .f32⟩
  | 12 => ⟨S32, .f32⟩
  | 13 => ⟨S64x64, .f32⟩
  | 14 => ⟨S64, .f32⟩
  | 15 => ⟨S1x1000000, .i32⟩
  | 16 => ⟨S1000000, .i32⟩
  | 17 => ⟨S1x1000000, .i32⟩
  | 18 => ⟨S1000000, .i32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x64, .f32⟩
  | 28 => ⟨S1000000x1, .f32⟩
  | 29 => ⟨S1000000x64, .f32⟩
  | 30 => ⟨S1000000x64, .f32⟩
  | 31 => ⟨S_, .f32⟩
  | 32 => ⟨S100000x64, .f32⟩
  | 33 => ⟨S1000000x1, .i32⟩
  | 34 => ⟨S100000x64, .f32⟩
  | 35 => ⟨S_, .f32⟩
  | 36 => ⟨S100000, .f32⟩
  | 37 => ⟨S1000000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S1x500000, .i32⟩
  | 46 => ⟨S500000, .i32⟩
  | 47 => ⟨S1x500000, .i32⟩
  | 48 => ⟨S500000, .i32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x64, .f32⟩
  | 58 => ⟨S500000x1, .f32⟩
  | 59 => ⟨S500000x64, .f32⟩
  | 60 => ⟨S500000x64, .f32⟩
  | 61 => ⟨S_, .f32⟩
  | 62 => ⟨S100000x64, .f32⟩
  | 63 => ⟨S500000x1, .i32⟩
  | 64 => ⟨S100000x64, .f32⟩
  | 65 => ⟨S_, .f32⟩
  | 66 => ⟨S100000, .f32⟩
  | 67 => ⟨S500000x1, .i32⟩
  | 68 => ⟨S100000, .f32⟩
  | 69 => ⟨S_, .f32⟩
  | 70 => ⟨S100000, .f32⟩
  | 71 => ⟨S100000, .f32⟩
  | 72 => ⟨S100000x1, .f32⟩
  | 73 => ⟨S100000x64, .f32⟩
  | 74 => ⟨S100000x64, .f32⟩
  | 75 => ⟨S100000x32, .f32⟩
  | 76 => ⟨S100000x32, .f32⟩
  | 77 => ⟨S1x1000000, .i32⟩
  | 78 => ⟨S1000000, .i32⟩
  | 79 => ⟨S1x1000000, .i32⟩
  | 80 => ⟨S1000000, .i32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1000000x32, .f32⟩
  | 90 => ⟨S1000000x1, .f32⟩
  | 91 => ⟨S1000000x32, .f32⟩
  | 92 => ⟨S1000000x32, .f32⟩
  | 93 => ⟨S_, .f32⟩
  | 94 => ⟨S100000x32, .f32⟩
  | 95 => ⟨S1000000x1, .i32⟩
  | 96 => ⟨S100000x32, .f32⟩
  | 97 => ⟨S_, .f32⟩
  | 98 => ⟨S100000, .f32⟩
  | 99 => ⟨S1000000x1, .i32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x32, .f32⟩
  | 106 => ⟨S100000x32, .f32⟩
  | 107 => ⟨S1x500000, .i32⟩
  | 108 => ⟨S500000, .i32⟩
  | 109 => ⟨S1x500000, .i32⟩
  | 110 => ⟨S500000, .i32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S500000x32, .f32⟩
  | 120 => ⟨S500000x1, .f32⟩
  | 121 => ⟨S500000x32, .f32⟩
  | 122 => ⟨S500000x32, .f32⟩
  | 123 => ⟨S_, .f32⟩
  | 124 => ⟨S100000x32, .f32⟩
  | 125 => ⟨S500000x1, .i32⟩
  | 126 => ⟨S100000x32, .f32⟩
  | 127 => ⟨S_, .f32⟩
  | _ => ⟨S2x1000000, .i32⟩

abbrev hbmTy0_1 (i : Nat) : BufTy := match i % 128 with
  | 0 => ⟨S100000, .f32⟩
  | 1 => ⟨S500000x1, .i32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x32, .f32⟩
  | 8 => ⟨S100000x32, .f32⟩
  | 9 => ⟨S1x1000000, .i32⟩
  | 10 => ⟨S1000000, .i32⟩
  | 11 => ⟨S1x1000000, .i32⟩
  | 12 => ⟨S1000000, .i32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x32, .f32⟩
  | 22 => ⟨S1000000x1, .f32⟩
  | 23 => ⟨S1000000x32, .f32⟩
  | 24 => ⟨S1000000x32, .f32⟩
  | 25 => ⟨S_, .f32⟩
  | 26 => ⟨S100000x32, .f32⟩
  | 27 => ⟨S1000000x1, .i32⟩
  | 28 => ⟨S100000x32, .f32⟩
  | 29 => ⟨S_, .f32⟩
  | 30 => ⟨S100000, .f32⟩
  | 31 => ⟨S1000000x1, .i32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x32, .f32⟩
  | 38 => ⟨S100000x32, .f32⟩
  | 39 => ⟨S1x500000, .i32⟩
  | 40 => ⟨S500000, .i32⟩
  | 41 => ⟨S1x500000, .i32⟩
  | 42 => ⟨S500000, .i32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000x32, .f32⟩
  | 52 => ⟨S500000x1, .f32⟩
  | 53 => ⟨S500000x32, .f32⟩
  | 54 => ⟨S500000x32, .f32⟩
  | 55 => ⟨S_, .f32⟩
  | 56 => ⟨S100000x32, .f32⟩
  | 57 => ⟨S500000x1, .i32⟩
  | 58 => ⟨S100000x32, .f32⟩
  | 59 => ⟨S_, .f32⟩
  | 60 => ⟨S100000, .f32⟩
  | 61 => ⟨S500000x1, .i32⟩
  | 62 => ⟨S100000, .f32⟩
  | 63 => ⟨S_, .f32⟩
  | 64 => ⟨S100000, .f32⟩
  | 65 => ⟨S100000, .f32⟩
  | 66 => ⟨S100000x1, .f32⟩
  | 67 => ⟨S100000x32, .f32⟩
  | 68 => ⟨S100000x32, .f32⟩
  | 69 => ⟨S100000x64, .f32⟩
  | _ => ⟨S2x1000000, .i32⟩

abbrev hbmTy (i : Nat) : BufTy := match i / 128 with
  | 0 => hbmTy0_0 i
  | 1 => hbmTy0_1 i
  | _ => ⟨S2x1000000, .i32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S128x32, .f32⟩
  | .local _ .vmem, ⟨7, _⟩ => ⟨S32, .f32⟩
  | .local _ .vmem, ⟨8, _⟩ => ⟨S128x32, .f32⟩
  | .local _ .vmem, ⟨9, _⟩ => ⟨S32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S96x32, .f32⟩
  | .local _ .vmem, ⟨27, _⟩ => ⟨S32, .f32⟩
  | .local _ .vmem, ⟨28, _⟩ => ⟨S96x32, .f32⟩
  | .local _ .vmem, ⟨29, _⟩ => ⟨S32, .f32⟩
  | .local _ .vmem, ⟨30, _⟩ => ⟨S64x64, .f32⟩
  | .local _ .vmem, ⟨31, _⟩ => ⟨S64, .f32⟩
  | .local _ .vmem, ⟨32, _⟩ => ⟨S5000x64, .f32⟩
  | .local _ .vmem, ⟨33, _⟩ => ⟨S5000x64, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_3 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50_0 : Ref sig .tc := ⟨.hbm, 75, rfl⟩
abbrev main_v50_1 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_8 : Ref sig .tc := ⟨.hbm, 81, rfl⟩
abbrev main_v55 : Ref sig .tc := ⟨.hbm, 82, rfl⟩
abbrev main_v56 : Ref sig .tc := ⟨.hbm, 83, rfl⟩
abbrev main_c_9 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_10 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_11 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_12 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_13 : Ref sig .tc := ⟨.hbm, 111, rfl⟩
abbrev main_v80 : Ref sig .tc := ⟨.hbm, 112, rfl⟩
abbrev main_v81 : Ref sig .tc := ⟨.hbm, 113, rfl⟩
abbrev main_c_14 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_15 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_16 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_17 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_c_18 : Ref sig .tc := ⟨.hbm, 141, rfl⟩
abbrev main_v105 : Ref sig .tc := ⟨.hbm, 142, rfl⟩
abbrev main_v106 : Ref sig .tc := ⟨.hbm, 143, rfl⟩
abbrev main_c_19 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_20 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_21 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_22 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_c_23 : Ref sig .tc := ⟨.hbm, 171, rfl⟩
abbrev main_v130 : Ref sig .tc := ⟨.hbm, 172, rfl⟩
abbrev main_v131 : Ref sig .tc := ⟨.hbm, 173, rfl⟩
abbrev main_c_24 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_25 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_cst_26 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_cst_27 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg12_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem12_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S96x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S96x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S5000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x64_0_1 : S500000x1.BroadcastsInDim S500000x64 (![0, 1] : Fin 2 → Fin S500000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S128x32_S64x32_0_0 : ∀ a, (![0, 0] : Fin 2 → Nat) a + S64x32.size a ≤ S128x32.size a
  h_S64x32 : 0 < S64x32.numel
  inb_S128x32_S64x32_64_0 : ∀ a, (![64, 0] : Fin 2 → Nat) a + S64x32.size a ≤ S128x32.size a
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S1000000x1_S1000000x32_0_1 : S1000000x1.BroadcastsInDim S1000000x32 (![0, 1] : Fin 2 → Fin S1000000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S500000x1_S500000x32_0_1 : S500000x1.BroadcastsInDim S500000x32 (![0, 1] : Fin 2 → Fin S500000x32.rank)
  shapeCasts_S5000x32_S5000x32 : S5000x32.ShapeCasts S5000x32
  inb_S96x32_S32x32_0_0 : ∀ a, (![0, 0] : Fin 2 → Nat) a + S32x32.size a ≤ S96x32.size a
  h_S32x32 : 0 < S32x32.numel
  inb_S96x32_S32x32_32_0 : ∀ a, (![32, 0] : Fin 2 → Nat) a + S32x32.size a ≤ S96x32.size a
  inb_S96x32_S32x32_64_0 : ∀ a, (![64, 0] : Fin 2 → Nat) a + S32x32.size a ≤ S96x32.size a
  inb_S64x64_S32x64_0_0 : ∀ a, (![0, 0] : Fin 2 → Nat) a + S32x64.size a ≤ S64x64.size a
  h_S32x64 : 0 < S32x64.numel
  inb_S64x64_S32x64_32_0 : ∀ a, (![32, 0] : Fin 2 → Nat) a + S32x64.size a ≤ S64x64.size a
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  gather_S100000x64_S500000x1_S500000x64_1_0_n_n_0_1_164_wf : GatherDims.WF S100000x64 S500000x1 S500000x64 [1] [0] [] [0] [] 1 ![1, 64]
  scatter_S100000x64_S500000x1_S500000x64_1_0_0_1_wf : ScatterDims.WF S100000x64 S500000x1 S500000x64 [1] [0] [0] 1
  scatter_S100000_S500000x1_S500000_n_0_0_1_wf : ScatterDims.WF S100000 S500000x1 S500000 [] [0] [0] 1
  dot_S5000x64_S64x32_S5000x32_1_0_0_1_n_n_wf : DotDims.WF S5000x64 S64x32 S5000x32 [1] [0] [0] [1] [] []
  gather_S100000x32_S1000000x1_S1000000x32_1_0_n_n_0_1_132_wf : GatherDims.WF S100000x32 S1000000x1 S1000000x32 [1] [0] [] [0] [] 1 ![1, 32]
  scatter_S100000x32_S1000000x1_S1000000x32_1_0_0_1_wf : ScatterDims.WF S100000x32 S1000000x1 S1000000x32 [1] [0] [0] 1
  gather_S100000x32_S500000x1_S500000x32_1_0_n_n_0_1_132_wf : GatherDims.WF S100000x32 S500000x1 S500000x32 [1] [0] [] [0] [] 1 ![1, 32]
  scatter_S100000x32_S500000x1_S500000x32_1_0_0_1_wf : ScatterDims.WF S100000x32 S500000x1 S500000x32 [1] [0] [0] 1
  dot_S5000x32_S32x32_S5000x32_1_0_0_1_n_n_wf : DotDims.WF S5000x32 S32x32 S5000x32 [1] [0] [0] [1] [] []
  dot_S5000x32_S32x64_S5000x64_1_0_0_1_n_n_wf : DotDims.WF S5000x32 S32x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x32.size a ≤ S100000x32.size a
  hwx0_7 : ∀ i : grid0.Coords, EltTy.bits .f32 = 32 ∨ (Rect.block (s := S100000x32) S5000x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x32.size a ≤ S100000x32.size a
  hwx0_8 : ∀ i : grid0.Coords, EltTy.bits .f32 = 32 ∨ (Rect.block (s := S100000x32) S5000x32.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S96x32.size a ≤ S96x32.size a
  hwx1_6 : ∀ i : grid1.Coords, EltTy.bits .f32 = 32 ∨ (Rect.block (s := S96x32) S96x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32.size a ≤ S32.size a
  hwx1_7 : ∀ i : grid1.Coords, EltTy.bits .f32 = 32 ∨ (Rect.block (s := S32) S32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S96x32.size a ≤ S96x32.size a
  hwx1_8 : ∀ i : grid1.Coords, EltTy.bits .f32 = 32 ∨ (Rect.block (s := S96x32) S96x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32.size a ≤ S32.size a
  hwx1_9 : ∀ i : grid1.Coords, EltTy.bits .f32 = 32 ∨ (Rect.block (s := S32) S32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x64.size a ≤ S64x64.size a
  hwx1_10 : ∀ i : grid1.Coords, EltTy.bits .f32 = 32 ∨ (Rect.block (s := S64x64) S64x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64.size a ≤ S64.size a
  hwx1_11 : ∀ i : grid1.Coords, EltTy.bits .f32 = 32 ∨ (Rect.block (s := S64) S64.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x64.size a ≤ S100000x64.size a
  hwx1_12 : ∀ i : grid1.Coords, EltTy.bits .f32 = 32 ∨ (Rect.block (s := S100000x64) S5000x64.size (cc1_transform_12 i) (hinb1_12 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf
def gather_S100000x32_S500000x1_S500000x32_1_0_n_n_0_1_132 : GatherDims S100000x32 S500000x1 S500000x32 where
  offsetDims := [1]
  collapsedSliceDims := [0]
  operandBatchingDims := []
  startIndicesBatchingDims := []
  startIndexMap := [0]
  indexVectorDim := 1
  sliceSizes := ![1, 32]
  wf := gather_S100000x32_S500000x1_S500000x32_1_0_n_n_0_1_132_wf
def scatter_S100000x32_S500000x1_S500000x32_1_0_0_1 : ScatterDims S100000x32 S500000x1 S500000x32 where
  updateWindowDims := [1]
  insertedWindowDims := [0]
  scatterDimsToOperandDims := [0]
  indexVectorDim := 1
  wf := scatter_S100000x32_S500000x1_S500000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v50_0) S5000x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v50_1) S5000x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v75) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v100) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v125) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v150) S5000x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v50_0) S5000x32.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v50_1) S5000x32.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S96x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S96x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg12) S32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg13) S64x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg14) S64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v151) S5000x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S2x1000000 : Shape := ⟨2, ![2, 1000000]⟩
abbrev S2x500000 : Shape := ⟨2, ![2, 500000]⟩
abbrev S1000000 : Shape := ⟨1, ![1000000]⟩
abbrev S500000 : Shape := ⟨1, ![500000]⟩
abbrev S100000x64 : Shape := ⟨2, ![100000, 64]⟩
abbrev S128x32 : Shape := ⟨2, ![128, 32]⟩
abbrev S32 : Shape := ⟨1, ![32]⟩
abbrev S96x32 : Shape := ⟨2, ![96, 32]⟩
abbrev S64x64 : Shape := ⟨2, ![64, 64]⟩
abbrev S64 : Shape := ⟨1, ![64]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x500000 : Shape := ⟨2, ![1, 500000]⟩
abbrev S500000x1 : Shape := ⟨2, ![500000, 1]⟩
abbrev S500000x64 : Shape := ⟨2, ![500000, 64]⟩
abbrev S100000x128 : Shape := ⟨2, ![100000, 128]⟩
abbrev S100000x32 : Shape := ⟨2, ![100000, 32]⟩
abbrev S1x32 : Shape := ⟨2, ![1, 32]⟩
abbrev S1000000x32 : Shape := ⟨2, ![1000000, 32]⟩
abbrev S500000x32 : Shape := ⟨2, ![500000, 32]⟩
abbrev S100000x96 : Shape := ⟨2, ![100000, 96]⟩
abbrev S1x64 : Shape := ⟨2, ![1, 64]⟩

abbrev nBuf : Space → Nat
  | .hbm => 226
  | .vmem => 0
  | .smem => 0
  | _ => 0

abbrev hbmTy0_0 (i : Nat) : BufTy := match i % 128 with
  | 0 => ⟨S2x1000000, .i32⟩
  | 1 => ⟨S2x500000, .i32⟩
  | 2 => ⟨S1000000, .f32⟩
  | 3 => ⟨S500000, .f32⟩
  | 4 => ⟨S100000x64, .f32⟩
  | 5 => ⟨S128x32, .f32⟩
  | 6 => ⟨S32, .f32⟩
  | 7 => ⟨S128x32, .f32⟩
  | 8 => ⟨S32, .f32⟩
  | 9 => ⟨S96x32, .f32⟩
  | 10 => ⟨S32, .f32⟩
  | 11 => ⟨S96x32, .f32⟩
  | 12 => ⟨S32, .f32⟩
  | 13 => ⟨S64x64, .f32⟩
  | 14 => ⟨S64, .f32⟩
  | 15 => ⟨S1x1000000, .i32⟩
  | 16 => ⟨S1000000, .i32⟩
  | 17 => ⟨S1x1000000, .i32⟩
  | 18 => ⟨S1000000, .i32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x64, .f32⟩
  | 28 => ⟨S1000000x1, .f32⟩
  | 29 => ⟨S1000000x64, .f32⟩
  | 30 => ⟨S1000000x64, .f32⟩
  | 31 => ⟨S_, .f32⟩
  | 32 => ⟨S100000x64, .f32⟩
  | 33 => ⟨S1000000x1, .i32⟩
  | 34 => ⟨S100000x64, .f32⟩
  | 35 => ⟨S_, .f32⟩
  | 36 => ⟨S100000, .f32⟩
  | 37 => ⟨S1000000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S1x500000, .i32⟩
  | 46 => ⟨S500000, .i32⟩
  | 47 => ⟨S1x500000, .i32⟩
  | 48 => ⟨S500000, .i32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x64, .f32⟩
  | 58 => ⟨S500000x1, .f32⟩
  | 59 => ⟨S500000x64, .f32⟩
  | 60 => ⟨S500000x64, .f32⟩
  | 61 => ⟨S_, .f32⟩
  | 62 => ⟨S100000x64, .f32⟩
  | 63 => ⟨S500000x1, .i32⟩
  | 64 => ⟨S100000x64, .f32⟩
  | 65 => ⟨S_, .f32⟩
  | 66 => ⟨S100000, .f32⟩
  | 67 => ⟨S500000x1, .i32⟩
  | 68 => ⟨S100000, .f32⟩
  | 69 => ⟨S_, .f32⟩
  | 70 => ⟨S100000, .f32⟩
  | 71 => ⟨S100000, .f32⟩
  | 72 => ⟨S100000x1, .f32⟩
  | 73 => ⟨S100000x64, .f32⟩
  | 74 => ⟨S100000x64, .f32⟩
  | 75 => ⟨S100000x128, .f32⟩
  | 76 => ⟨S100000x32, .f32⟩
  | 77 => ⟨S1x32, .f32⟩
  | 78 => ⟨S100000x32, .f32⟩
  | 79 => ⟨S100000x32, .f32⟩
  | 80 => ⟨S100000x128, .f32⟩
  | 81 => ⟨S100000x32, .f32⟩
  | 82 => ⟨S1x32, .f32⟩
  | 83 => ⟨S100000x32, .f32⟩
  | 84 => ⟨S100000x32, .f32⟩
  | 85 => ⟨S100000x64, .f32⟩
  | 86 => ⟨S100000x64, .f32⟩
  | 87 => ⟨S100000x32, .f32⟩
  | 88 => ⟨S100000x32, .f32⟩
  | 89 => ⟨S1x1000000, .i32⟩
  | 90 => ⟨S1000000, .i32⟩
  | 91 => ⟨S1x1000000, .i32⟩
  | 92 => ⟨S1000000, .i32⟩
  | 93 => ⟨S_, .i32⟩
  | 94 => ⟨S1000000, .i32⟩
  | 95 => ⟨S1000000, .i1⟩
  | 96 => ⟨S_, .i32⟩
  | 97 => ⟨S1000000, .i32⟩
  | 98 => ⟨S1000000, .i32⟩
  | 99 => ⟨S1000000, .i32⟩
  | 100 => ⟨S1000000x1, .i32⟩
  | 101 => ⟨S1000000x32, .f32⟩
  | 102 => ⟨S1000000x1, .f32⟩
  | 103 => ⟨S1000000x32, .f32⟩
  | 104 => ⟨S1000000x32, .f32⟩
  | 105 => ⟨S_, .f32⟩
  | 106 => ⟨S100000x32, .f32⟩
  | 107 => ⟨S1000000x1, .i32⟩
  | 108 => ⟨S100000x32, .f32⟩
  | 109 => ⟨S_, .f32⟩
  | 110 => ⟨S100000, .f32⟩
  | 111 => ⟨S1000000x1, .i32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x32, .f32⟩
  | 118 => ⟨S100000x32, .f32⟩
  | 119 => ⟨S1x500000, .i32⟩
  | 120 => ⟨S500000, .i32⟩
  | 121 => ⟨S1x500000, .i32⟩
  | 122 => ⟨S500000, .i32⟩
  | 123 => ⟨S_, .i32⟩
  | 124 => ⟨S500000, .i32⟩
  | 125 => ⟨S500000, .i1⟩
  | 126 => ⟨S_, .i32⟩
  | 127 => ⟨S500000, .i32⟩
  | _ => ⟨S2x1000000, .i32⟩

abbrev hbmTy0_1 (i : Nat) : BufTy := match i % 128 with
  | 0 => ⟨S500000, .i32⟩
  | 1 => ⟨S500000, .i32⟩
  | 2 => ⟨S500000x1, .i32⟩
  | 3 => ⟨S500000x32, .f32⟩
  | 4 => ⟨S500000x1, .f32⟩
  | 5 => ⟨S500000x32, .f32⟩
  | 6 => ⟨S500000x32, .f32⟩
  | 7 => ⟨S_, .f32⟩
  | 8 => ⟨S100000x32, .f32⟩
  | 9 => ⟨S500000x1, .i32⟩
  | 10 => ⟨S100000x32, .f32⟩
  | 11 => ⟨S_, .f32⟩
  | 12 => ⟨S100000, .f32⟩
  | 13 => ⟨S500000x1, .i32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x32, .f32⟩
  | 20 => ⟨S100000x32, .f32⟩
  | 21 => ⟨S100000x96, .f32⟩
  | 22 => ⟨S100000x32, .f32⟩
  | 23 => ⟨S1x32, .f32⟩
  | 24 => ⟨S100000x32, .f32⟩
  | 25 => ⟨S100000x32, .f32⟩
  | 26 => ⟨S1x1000000, .i32⟩
  | 27 => ⟨S1000000, .i32⟩
  | 28 => ⟨S1x1000000, .i32⟩
  | 29 => ⟨S1000000, .i32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000x32, .f32⟩
  | 39 => ⟨S1000000x1, .f32⟩
  | 40 => ⟨S1000000x32, .f32⟩
  | 41 => ⟨S1000000x32, .f32⟩
  | 42 => ⟨S_, .f32⟩
  | 43 => ⟨S100000x32, .f32⟩
  | 44 => ⟨S1000000x1, .i32⟩
  | 45 => ⟨S100000x32, .f32⟩
  | 46 => ⟨S_, .f32⟩
  | 47 => ⟨S100000, .f32⟩
  | 48 => ⟨S1000000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x32, .f32⟩
  | 55 => ⟨S100000x32, .f32⟩
  | 56 => ⟨S1x500000, .i32⟩
  | 57 => ⟨S500000, .i32⟩
  | 58 => ⟨S1x500000, .i32⟩
  | 59 => ⟨S500000, .i32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x32, .f32⟩
  | 69 => ⟨S500000x1, .f32⟩
  | 70 => ⟨S500000x32, .f32⟩
  | 71 => ⟨S500000x32, .f32⟩
  | 72 => ⟨S_, .f32⟩
  | 73 => ⟨S100000x32, .f32⟩
  | 74 => ⟨S500000x1, .i32⟩
  | 75 => ⟨S100000x32, .f32⟩
  | 76 => ⟨S_, .f32⟩
  | 77 => ⟨S100000, .f32⟩
  | 78 => ⟨S500000x1, .i32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x32, .f32⟩
  | 85 => ⟨S100000x32, .f32⟩
  | 86 => ⟨S100000x96, .f32⟩
  | 87 => ⟨S100000x32, .f32⟩
  | 88 => ⟨S1x32, .f32⟩
  | 89 => ⟨S100000x32, .f32⟩
  | 90 => ⟨S100000x32, .f32⟩
  | 91 => ⟨S100000x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S100000x64, .f32⟩
  | _ => ⟨S2x1000000, .i32⟩

abbrev hbmTy (i : Nat) : BufTy := match i / 128 with
  | 0 => hbmTy0_0 i
  | 1 => hbmTy0_1 i
  | _ => ⟨S2x1000000, .i32⟩

abbrev bufTy : (tb : Table) → Fin (tcTables nBuf tb) → BufTy
  | .hbm, ⟨i, _⟩ => hbmTy i
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_3 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_8 : Ref sig .tc := ⟨.hbm, 93, rfl⟩
abbrev main_v68 : Ref sig .tc := ⟨.hbm, 94, rfl⟩
abbrev main_v69 : Ref sig .tc := ⟨.hbm, 95, rfl⟩
abbrev main_c_9 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_10 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_11 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_12 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_c_13 : Ref sig .tc := ⟨.hbm, 123, rfl⟩
abbrev main_v93 : Ref sig .tc := ⟨.hbm, 124, rfl⟩
abbrev main_v94 : Ref sig .tc := ⟨.hbm, 125, rfl⟩
abbrev main_c_14 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_15 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_16 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_17 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_c_18 : Ref sig .tc := ⟨.hbm, 158, rfl⟩
abbrev main_v123 : Ref sig .tc := ⟨.hbm, 159, rfl⟩
abbrev main_v124 : Ref sig .tc := ⟨.hbm, 160, rfl⟩
abbrev main_c_19 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_20 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_21 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_22 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_c_23 : Ref sig .tc := ⟨.hbm, 188, rfl⟩
abbrev main_v148 : Ref sig .tc := ⟨.hbm, 189, rfl⟩
abbrev main_v149 : Ref sig .tc := ⟨.hbm, 190, rfl⟩
abbrev main_c_24 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_cst_25 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_26 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_cst_27 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x64_0_1 : S500000x1.BroadcastsInDim S500000x64 (![0, 1] : Fin 2 → Fin S500000x64.rank)
  concatenates_S100000x64_S100000x64_S100000x128_d1 : Shape.Concatenates [S100000x64, S100000x64] S100000x128 1
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S100000x32_S100000x32_S100000x64_d1 : Shape.Concatenates [S100000x32, S100000x32] S100000x64 1
  slices_S100000x64_S100000x32_0_0 : S100000x64.Slices ![0, 0] S100000x32
  slices_S100000x64_S100000x32_0_32 : S100000x64.Slices ![0, 32] S100000x32
  bcast_S1000000x1_S1000000x32_0_1 : S1000000x1.BroadcastsInDim S1000000x32 (![0, 1] : Fin 2 → Fin S1000000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S500000x1_S500000x32_0_1 : S500000x1.BroadcastsInDim S500000x32 (![0, 1] : Fin 2 → Fin S500000x32.rank)
  concatenates_S100000x32_S100000x32_S100000x32_S100000x96_d1 : Shape.Concatenates [S100000x32, S100000x32, S100000x32] S100000x96 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  gather_S100000x64_S500000x1_S500000x64_1_0_n_n_0_1_164_wf : GatherDims.WF S100000x64 S500000x1 S500000x64 [1] [0] [] [0] [] 1 ![1, 64]
  scatter_S100000x64_S500000x1_S500000x64_1_0_0_1_wf : ScatterDims.WF S100000x64 S500000x1 S500000x64 [1] [0] [0] 1
  scatter_S100000_S500000x1_S500000_n_0_0_1_wf : ScatterDims.WF S100000 S500000x1 S500000 [] [0] [0] 1
  dot_S100000x128_S128x32_S100000x32_1_0_0_1_n_n_wf : DotDims.WF S100000x128 S128x32 S100000x32 [1] [0] [0] [1] [] []
  gather_S100000x32_S1000000x1_S1000000x32_1_0_n_n_0_1_132_wf : GatherDims.WF S100000x32 S1000000x1 S1000000x32 [1] [0] [] [0] [] 1 ![1, 32]
  scatter_S100000x32_S1000000x1_S1000000x32_1_0_0_1_wf : ScatterDims.WF S100000x32 S1000000x1 S1000000x32 [1] [0] [0] 1
  gather_S100000x32_S500000x1_S500000x32_1_0_n_n_0_1_132_wf : GatherDims.WF S100000x32 S500000x1 S500000x32 [1] [0] [] [0] [] 1 ![1, 32]
  scatter_S100000x32_S500000x1_S500000x32_1_0_0_1_wf : ScatterDims.WF S100000x32 S500000x1 S500000x32 [1] [0] [0] 1
  dot_S100000x96_S96x32_S100000x32_1_0_0_1_n_n_wf : DotDims.WF S100000x96 S96x32 S100000x32 [1] [0] [0] [1] [] []
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf
def gather_S100000x32_S500000x1_S500000x32_1_0_n_n_0_1_132 : GatherDims S100000x32 S500000x1 S500000x32 where
  offsetDims := [1]
  collapsedSliceDims := [0]
  operandBatchingDims := []
  startIndicesBatchingDims := []
  startIndexMap := [0]
  indexVectorDim := 1
  sliceSizes := ![1, 32]
  wf := gather_S100000x32_S500000x1_S500000x32_1_0_n_n_0_1_132_wf
def scatter_S100000x32_S500000x1_S500000x32_1_0_0_1 : ScatterDims S100000x32 S500000x1 S500000x32 where
  updateWindowDims := [1]
  insertedWindowDims := [0]
  scatterDimsToOperandDims := [0]
  indexVectorDim := 1
  wf := scatter_S100000x32_S500000x1_S500000x32_1_0_0_1_wf
def dot_S100000x96_S96x32_S100000x32_1_0_0_1_n_n : DotDims S100000x96 S96x32 S100000x32 where
  lhsContracting := [1]
  rhsContracting := [0]
  lhsNonContracting := [0]
  rhsNonContracting := [1]
  lhsBatch := []
  rhsBatch := []
  wf := dot_S100000x96_S96x32_S100000x32_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run, with its result array named.

  @main is a stretch of host operations, the first kernel, a second stretch of host operations, the second
  kernel. Every weakly fair execution terminates without fault; afterwards the argument arrays are as launched
  and the result array holds what the last boundary's contents give it: the second kernel's output array as its
  grid points' write-backs leave it.
-/
import proofs.«120313_j78408922956333_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without fault, the result array at the last boundary's contents, the arguments unchanged. -/
theorem run_named : θ_run defs (onTc (τ := τ) (main (F := F))) ⟨m, fun _ => 0, ρ⟩ (fun r => ∀ c : Dev nD,
      r.2.mem ((c.tc : Thread nD τ).loc main_v151) = W4 m ρ c (Proc.devRef .tc main_v151)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v151 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.RunValue

end
-- ==== Proof.Agg.lean ====
/-
  The weighted-mean aggregation over a graph's edges, as the host computes it.

  An edge table has a row of source nodes and a row of destination nodes. Each edge sends its source's feature
  row, multiplied by the edge's weight, to its destination; a node's aggregate is the sum of what arrives
  divided by the larger of the sum of the arriving weights and a small constant. The two programs compute it
  with the same host operations — a gather of the source rows, a scatter-add at the destinations, a maximum
  and a division — so it is named here once per edge count (one million positive edges, half a million negative
  ones) and feature width (64 or 32) and never opened.
-/
import proofs.«120313_j78408922956333_1_alg».proof.Proof.Gen.KernelIdeal

noncomputable section

namespace Cert.KernelIdeal.Agg

open Cert.KernelIdeal Cert.KernelIdeal.Gen Idealize.ShloMosaic

variable {F : FTy → Type} [FloatOps F]

/-- The source nodes of the positive edges. -/
def src1M (ei : (⟨S2x1000000, .i32⟩ : BufTy).Contents (Elt F)) : (⟨S1000000, .i32⟩ : BufTy).Contents (Elt F) :=
  shapeCast _ (extractStridedSlice S1x1000000 ![0, 0] ei slices_S2x1000000_S1x1000000_0_0) shapeCasts_S1x1000000_S1000000
/-- The destination nodes of the positive edges. -/
def dst1M (ei : (⟨S2x1000000, .i32⟩ : BufTy).Contents (Elt F)) : (⟨S1000000, .i32⟩ : BufTy).Contents (Elt F) :=
  shapeCast _ (extractStridedSlice S1x1000000 ![1, 0] ei slices_S2x1000000_S1x1000000_1_0) shapeCasts_S1x1000000_S1000000
/-- The source nodes of the negative edges. -/
def src500K (ei : (⟨S2x500000, .i32⟩ : BufTy).Contents (Elt F)) : (⟨S500000, .i32⟩ : BufTy).Contents (Elt F) :=
  shapeCast _ (extractStridedSlice S1x500000 ![0, 0] ei slices_S2x500000_S1x500000_0_0) shapeCasts_S1x500000_S500000
/-- The destination nodes of the negative edges. -/
def dst500K (ei : (⟨S2x500000, .i32⟩ : BufTy).Contents (Elt F)) : (⟨S500000, .i32⟩ : BufTy).Contents (Elt F) :=
  shapeCast _ (extractStridedSlice S1x500000 ![1, 0] ei slices_S2x500000_S1x500000_1_0) shapeCasts_S1x500000_S500000

/-- The weighted mean over the positive edges of 64-wide rows. -/
def wmean64pos (ei : (⟨S2x1000000, .i32⟩ : BufTy).Contents (Elt F)) (w : (⟨S1000000, .f32⟩ : BufTy).Contents (Elt F)) (feat : (⟨S100000x64, .f32⟩ : BufTy).Contents (Elt F)) : (⟨S100000x64, .f32⟩ : BufTy).Contents (Elt F) :=
  Host.divf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (dst1M ei)) (mulf (Host.gather gather_S100000x64_S1000000x1_S1000000x64_1_0_n_n_0_1_164 feat (broadcastInDim S1000000x1 ![0] bcast_S1000000_S1000000x1_0 (select (cmpi .slt (src1M ei) (broadcastInDim S1000000 ![] bcast_S_S1000000 (constantI S_ 32 0#32))) (addi (src1M ei) (broadcastInDim S1000000 ![] bcast_S_S1000000 (constantI S_ 32 100000#32))) (src1M ei)))) (broadcastInDim S1000000x64 ![0, 1] bcast_S1000000x1_S1000000x64_0_1 (broadcastInDim S1000000x1 ![0] bcast_S1000000_S1000000x1_0 w)))) (broadcastInDim S100000x64 ![0, 1] bcast_S100000x1_S100000x64_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (dst1M ei)) w) (broadcastInDim S100000 ![] bcast_S_S100000 (constant S_ .f32 0x2B8CBCCC#32)))))

/-- The weighted mean over the negative edges of 64-wide rows. -/
def wmean64neg (ei : (⟨S2x500000, .i32⟩ : BufTy).Contents (Elt F)) (w : (⟨S500000, .f32⟩ : BufTy).Contents (Elt F)) (feat : (⟨S100000x64, .f32⟩ : BufTy).Contents (Elt F)) : (⟨S100000x64, .f32⟩ : BufTy).Contents (Elt F) :=
  Host.divf (Host.scatterAdd scatter_S100000x64_S500000x1_S500000x64_1_0_0_1 (broadcastInDim S100000x64 ![] bcast_S_S100000x64 (constant S_ .f32 0x00000000#32)) (broadcastInDim S500000x1 ![0] bcast_S500000_S500000x1_0 (dst500K ei)) (mulf (Host.gather gather_S100000x64_S500000x1_S500000x64_1_0_n_n_0_1_164 feat (broadcastInDim S500000x1 ![0] bcast_S500000_S500000x1_0 (select (cmpi .slt (src500K ei) (broadcastInDim S500000 ![] bcast_S_S500000 (constantI S_ 32 0#32))) (addi (src500K ei) (broadcastInDim S500000 ![] bcast_S_S500000 (constantI S_ 32 100000#32))) (src500K ei)))) (broadcastInDim S500000x64 ![0, 1] bcast_S500000x1_S500000x64_0_1 (broadcastInDim S500000x1 ![0] bcast_S500000_S500000x1_0 w)))) (broadcastInDim S100000x64 ![0, 1] bcast_S100000x1_S100000x64_0_1 (broadcastInDim S100000x1 ![0] bcast_S100000_S100000x1_0 (maximumf (Host.scatterAdd scatter_S100000_S500000x1_S500000_n_0_0_1 (broadcastInDim S100000 ![] bcast_S_S100000 (constant S_ .f32 0x00000000#32)) (broadcastInDim S500000x1 ![0] bcast_S500000_S500000x1_0 (dst500K ei)) w) (broadcastInDim S100000 ![] bcast_S_S100000 (constant S_ .f32 0x2B8CBCCC#32)))))

/-- The weighted mean over the positive edges of 32-wide rows. -/
def wmean32pos (ei : (⟨S2x1000000, .i32⟩ : BufTy).Contents (Elt F)) (w : (⟨S1000000, .f32⟩ : BufTy).Contents (Elt F)) (feat : (⟨S100000x32, .f32⟩ : BufTy).Contents (Elt F)) : (⟨S100000x32, .f32⟩ : BufTy).Contents (Elt F) :=
  Host.divf (Host.scatterAdd scatter_S100000x32_S1000000x1_S1000000x32_1_0_0_1 (broadcastInDim S100000x32 ![] bcast_S_S100000x32 (constant S_ .f32 0x00000000#32)) (broadcastInDim S1000000x1 ![0] bcast_S1000000_S1000000x1_0 (dst1M ei)) (mulf (Host.gather gather_S100000x32_S1000000x1_S1000000x32_1_0_n_n_0_1_132 feat (broadcastInDim S1000000x1 ![0] bcast_S1000000_S1000000x1_0 (select (cmpi .slt (src1M ei) (broadcastInDim S1000000 ![] bcast_S_S1000000 (constantI S_ 32 0#32))) (addi (src1M ei) (broadcastInDim S1000000 ![] bcast_S_S1000000 (constantI S_ 32 100000#32))) (src1M ei)))) (broadcastInDim S1000000x32 ![0, 1] bcast_S1000000x1_S1000000x32_0_1 (broadcastInDim S1000000x1 ![0] bcast_S1000000_S1000000x1_0 w)))) (broadcastInDim S100000x32 ![0, 1] bcast_S100000x1_S100000x32_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (dst1M ei)) w) (broadcastInDim S100000 ![] bcast_S_S100000 (constant S_ .f32 0x2B8CBCCC#32)))))

/-- The weighted mean over the negative edges of 32-wide rows. -/
def wmean32neg (ei : (⟨S2x500000, .i32⟩ : BufTy).Contents (Elt F)) (w : (⟨S500000, .f32⟩ : BufTy).Contents (Elt F)) (feat : (⟨S100000x32, .f32⟩ : BufTy).Contents (Elt F)) : (⟨S100000x32, .f32⟩ : BufTy).Contents (Elt F) :=
  Host.divf (Host.scatterAdd scatter_S100000x32_S500000x1_S500000x32_1_0_0_1 (broadcastInDim S100000x32 ![] bcast_S_S100000x32 (constant S_ .f32 0x00000000#32)) (broadcastInDim S500000x1 ![0] bcast_S500000_S500000x1_0 (dst500K ei)) (mulf (Host.gather gather_S100000x32_S500000x1_S500000x32_1_0_n_n_0_1_132 feat (broadcastInDim S500000x1 ![0] bcast_S500000_S500000x1_0 (select (cmpi .slt (src500K ei) (broadcastInDim S500000 ![] bcast_S_S500000 (constantI S_ 32 0#32))) (addi (src500K ei) (broadcastInDim S500000 ![] bcast_S_S500000 (constantI S_ 32 100000#32))) (src500K ei)))) (broadcastInDim S500000x32 ![0, 1] bcast_S500000x1_S500000x32_0_1 (broadcastInDim S500000x1 ![0] bcast_S500000_S500000x1_0 w)))) (broadcastInDim S100000x32 ![0, 1] bcast_S100000x1_S100000x32_0_1 (broadcastInDim S100000x1 ![0] bcast_S100000_S100000x1_0 (maximumf (Host.scatterAdd scatter_S100000_S500000x1_S500000_n_0_0_1 (broadcastInDim S100000 ![] bcast_S_S100000 (constant S_ .f32 0x00000000#32)) (broadcastInDim S500000x1 ![0] bcast_S500000_S500000x1_0 (dst500K ei)) w) (broadcastInDim S100000 ![] bcast_S_S100000 (constant S_ .f32 0x2B8CBCCC#32)))))

end Cert.KernelIdeal.Agg

end
-- ==== Proof.KernelHost.lean ====
/-
  What each stretch of host operations of the idealized kernel's @main leaves behind.

  The first stretch computes the two aggregations of the node features (over the positive and over the
  negative edges) and writes nothing else the kernels read. The second stretch computes the four aggregations
  of the first layer's two outputs. Every other buffer — the arguments, and in the second stretch the first
  kernel's outputs — is left as it was.
-/
import proofs.«120313_j78408922956333_1_alg».proof.Proof.Gen.KernelIdeal.Launch
import proofs.«120313_j78408922956333_1_alg».proof.Proof.Agg
import Idealize.ShloMosaic.Lib.StableHlo.Run

noncomputable section

namespace Cert.KernelIdeal.HostStretch

open Cert.KernelIdeal Cert.KernelIdeal.Gen Cert.KernelIdeal.Agg
open Idealize.ShloMosaic Idealize.ShloMosaic.TcCoe Idealize.SL.Sem Idealize.ShloMosaic.StableHlo

variable {F : FTy → Type} [FloatOps F]

/-! ## The aggregations -/

set_option maxRecDepth 8192 in
set_option maxHeartbeats 2000000 in
theorem stretch0_v24 (Wv : Valuation τ sig (Elt F)) :
    StableHlo.after hostOps0 Wv (Proc.devRef .tc main_v24)
      = wmean64pos (Wv (Proc.devRef .tc main_arg0)) (Wv (Proc.devRef .tc main_arg2)) (Wv (Proc.devRef .tc main_arg4)) := by
  simp only [hostOps0]
  after_results_simp
  rfl

set_option maxRecDepth 8192 in
set_option maxHeartbeats 2000000 in
theorem stretch0_v49 (Wv : Valuation τ sig (Elt F)) :
    StableHlo.after hostOps0 Wv (Proc.devRef .tc main_v49)
      = wmean64neg (Wv (Proc.devRef .tc main_arg1)) (Wv (Proc.devRef .tc main_arg3)) (Wv (Proc.devRef .tc main_arg4)) := by
  simp only [hostOps0]
  after_results_simp
  rfl

set_option maxRecDepth 8192 in
set_option maxHeartbeats 2000000 in
theorem stretch1_v75 (Wv : Valuation τ sig (Elt F)) :
    StableHlo.after hostOps1 Wv (Proc.devRef .tc main_v75)
      = wmean32pos (Wv (Proc.devRef .tc main_arg0)) (Wv (Proc.devRef .tc main_arg2)) (Wv (Proc.devRef .tc main_v50_0)) := by
  simp only [hostOps1]
  after_results_simp
  rfl

set_option maxRecDepth 8192 in
set_option maxHeartbeats 2000000 in
theorem stretch1_v100 (Wv : Valuation τ sig (Elt F)) :
    StableHlo.after hostOps1 Wv (Proc.devRef .tc main_v100)
      = wmean32neg (Wv (Proc.devRef .tc main_arg1)) (Wv (Proc.devRef .tc main_arg3)) (Wv (Proc.devRef .tc main_v50_1)) := by
  simp only [hostOps1]
  after_results_simp
  rfl

set_option maxRecDepth 8192 in
set_option maxHeartbeats 2000000 in
theorem stretch1_v125 (Wv : Valuation τ sig (Elt F)) :
    StableHlo.after hostOps1 Wv (Proc.devRef .tc main_v125)
      = wmean32pos (Wv (Proc.devRef .tc main_arg0)) (Wv (Proc.devRef .tc main_arg2)) (Wv (Proc.devRef .tc main_v50_1)) := by
  simp only [hostOps1]
  after_results_simp
  rfl

set_option maxRecDepth 8192 in
set_option maxHeartbeats 2000000 in
theorem stretch1_v150 (Wv : Valuation τ sig (Elt F)) :
    StableHlo.after hostOps1 Wv (Proc.devRef .tc main_v150)
      = wmean32neg (Wv (Proc.devRef .tc main_arg1)) (Wv (Proc.devRef .tc main_arg3)) (Wv (Proc.devRef .tc main_v50_0)) := by
  simp only [hostOps1]
  after_results_simp
  rfl

/-! ## The buffers a stretch does not write -/

theorem keep0_arg0 (Wv : Valuation τ sig (Elt F)) :
    StableHlo.after hostOps0 Wv (Proc.devRef .tc main_arg0) = Wv (Proc.devRef .tc main_arg0) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep0_arg1 (Wv : Valuation τ sig (Elt F)) :
    StableHlo.after hostOps0 Wv (Proc.devRef .tc main_arg1) = Wv (Proc.devRef .tc main_arg1) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep0_arg2 (Wv : Valuation τ sig (Elt F)) :
    StableHlo.after hostOps0 Wv (Proc.devRef .tc main_arg2) = Wv (Proc.devRef .tc main_arg2) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep0_arg3 (Wv : Valuation τ sig (Elt F)) :
    StableHlo.after hostOps0 Wv (Proc.devRef .tc main_arg3) = Wv (Proc.devRef .tc main_arg3) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep0_arg4 (Wv : Valuation τ sig (Elt F)) :
    StableHlo.after hostOps0 Wv (Proc.devRef .tc main_arg4) = Wv (Proc.devRef .tc main_arg4) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep0_arg5 (Wv : Valuation τ sig (Elt F)) :
    StableHlo.after hostOps0 Wv (Proc.devRef .tc main_arg5) = Wv (Proc.devRef .tc main_arg5) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep0_arg6 (Wv : Valuation τ sig (Elt F)) :
    StableHlo.after hostOps0 Wv (Proc.devRef .tc main_arg6) = Wv (Proc.devRef .tc main_arg6) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep0_arg7 (Wv : Valuation τ sig (Elt F)) :
    StableHlo.after hostOps0 Wv (Proc.devRef .tc main_arg7) = Wv (Proc.devRef .tc main_arg7) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep0_arg8 (Wv : Valuation τ sig (Elt F)) :
    StableHlo.after hostOps0 Wv (Proc.devRef .tc main_arg8) = Wv (Proc.devRef .tc main_arg8) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep0_arg9 (Wv : Valuation τ sig (Elt F)) :
    StableHlo.after hostOps0 Wv (Proc.devRef .tc main_arg9) = Wv (Proc.devRef .tc main_arg9) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep0_arg10 (Wv : Valuation τ sig (Elt F)) :
    StableHlo.after hostOps0 Wv (Proc.devRef .tc main_arg10) = Wv (Proc.devRef .tc main_arg10) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep0_arg11 (Wv : Valuation τ sig (Elt F)) :
    StableHlo.after hostOps0 Wv (Proc.devRef .tc main_arg11) = Wv (Proc.devRef .tc main_arg11) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep0_arg12 (Wv : Valuation τ sig (Elt F)) :
    StableHlo.after hostOps0 Wv (Proc.devRef .tc main_arg12) = Wv (Proc.devRef .tc main_arg12) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep0_arg13 (Wv : Valuation τ sig (Elt F)) :
    StableHlo.after hostOps0 Wv (Proc.devRef .tc main_arg13) = Wv (Proc.devRef .tc main_arg13) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep0_arg14 (Wv : Valuation τ sig (Elt F)) :
    StableHlo.after hostOps0 Wv (Proc.devRef .tc main_arg14) = Wv (Proc.devRef .tc main_arg14) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_v50_0 (Wv : Valuation τ sig (Elt F)) :
    StableHlo.after hostOps1 Wv (Proc.devRef .tc main_v50_0) = Wv (Proc.devRef .tc main_v50_0) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_v50_1 (Wv : Valuation τ sig (Elt F)) :
    StableHlo.after hostOps1 Wv (Proc.devRef .tc main_v50_1) = Wv (Proc.devRef .tc main_v50_1) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_arg0 (Wv : Valuation τ sig (Elt F)) :
    StableHlo.after hostOps1 Wv (Proc.devRef .tc main_arg0) = Wv (Proc.devRef .tc main_arg0) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_arg1 (Wv : Valuation τ sig (Elt F)) :
    StableHlo.after hostOps1 Wv (Proc.devRef .tc main_arg1) = Wv (Proc.devRef .tc main_arg1) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_arg2 (Wv : Valuation τ sig (Elt F)) :
    StableHlo.after hostOps1 Wv (Proc.devRef .tc main_arg2) = Wv (Proc.devRef .tc main_arg2) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_arg3 (Wv : Valuation τ sig (Elt F)) :
    StableHlo.after hostOps1 Wv (Proc.devRef .tc main_arg3) = Wv (Proc.devRef .tc main_arg3) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_arg4 (Wv : Valuation τ sig (Elt F)) :
    StableHlo.after hostOps1 Wv (Proc.devRef .tc main_arg4) = Wv (Proc.devRef .tc main_arg4) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_arg5 (Wv : Valuation τ sig (Elt F)) :
    StableHlo.after hostOps1 Wv (Proc.devRef .tc main_arg5) = Wv (Proc.devRef .tc main_arg5) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_arg6 (Wv : Valuation τ sig (Elt F)) :
    StableHlo.after hostOps1 Wv (Proc.devRef .tc main_arg6) = Wv (Proc.devRef .tc main_arg6) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_arg7 (Wv : Valuation τ sig (Elt F)) :
    StableHlo.after hostOps1 Wv (Proc.devRef .tc main_arg7) = Wv (Proc.devRef .tc main_arg7) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_arg8 (Wv : Valuation τ sig (Elt F)) :
    StableHlo.after hostOps1 Wv (Proc.devRef .tc main_arg8) = Wv (Proc.devRef .tc main_arg8) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_arg9 (Wv : Valuation τ sig (Elt F)) :
    StableHlo.after hostOps1 Wv (Proc.devRef .tc main_arg9) = Wv (Proc.devRef .tc main_arg9) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_arg10 (Wv : Valuation τ sig (Elt F)) :
    StableHlo.after hostOps1 Wv (Proc.devRef .tc main_arg10) = Wv (Proc.devRef .tc main_arg10) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_arg11 (Wv : Valuation τ sig (Elt F)) :
    StableHlo.after hostOps1 Wv (Proc.devRef .tc main_arg11) = Wv (Proc.devRef .tc main_arg11) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_arg12 (Wv : Valuation τ sig (Elt F)) :
    StableHlo.after hostOps1 Wv (Proc.devRef .tc main_arg12) = Wv (Proc.devRef .tc main_arg12) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_arg13 (Wv : Valuation τ sig (Elt F)) :
    StableHlo.after hostOps1 Wv (Proc.devRef .tc main_arg13) = Wv (Proc.devRef .tc main_arg13) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep1_arg14 (Wv : Valuation τ sig (Elt F)) :
    StableHlo.after hostOps1 Wv (Proc.devRef .tc main_arg14) = Wv (Proc.devRef .tc main_arg14) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.HostStretch

end
-- ==== Proof.RowSpec.lean ====
/-
  The two per-node layers of the network, one output row at a time.

  Every stage between two graph aggregations acts on each node separately: row r of its output depends only
  on row r of each of its inputs (and on the weights). So each stage is stated here as a function from input
  ROWS to an output ROW, over the extended reals.

  A linear layer applied to several rows laid side by side is written in its SPLIT form: with the weight
  matrix cut into consecutive bands of rows, one band per input, it is the sum of the inputs' separate
  products with their bands, plus the bias. (That this is the product of the side-by-side row with the whole
  weight matrix is the splitting of a finite sum into consecutive stretches.)
-/
import Idealize.ShloMosaic.PureOps.Ideal
import Idealize.ShloMosaic.Lib.ValueIdx

noncomputable section

open scoped BigOperators

namespace Cert.Rows

open Idealize.ShloMosaic Idealize.ShloMosaic.ValueIdx

/-- An m × n array of extended reals. -/
abbrev Mat (m n : ℕ) : Type := (⟨2, ![m, n]⟩ : Shape).Idx → EReal
/-- A length-n array of extended reals. -/
abbrev Vc (n : ℕ) : Type := (⟨1, ![n]⟩ : Shape).Idx → EReal

/-- Row `r` of a matrix. -/
def row {m n : ℕ} (A : Mat m n) (r : Fin m) : Fin n → EReal := fun k => A (ix2 r k)

/-- The array whose row `r` is `f r`. -/
def ofRows {m n : ℕ} (f : Fin m → Fin n → EReal) : Mat m n := fun i => f (i 0) (i 1)

theorem ofRows_apply {m n : ℕ} (f : Fin m → Fin n → EReal) (r : Fin m) (c : Fin n) :
    ofRows f (ix2 r c) = f r c := rfl

theorem row_ofRows {m n : ℕ} (f : Fin m → Fin n → EReal) (r : Fin m) : row (ofRows f) r = f r := rfl

/-- A row `a` against the band of `K` rows of `W` that starts at row `o`, at output column `c`. -/
def band {K Kw N : ℕ} (a : Fin K → EReal) (W : Mat Kw N) (o : ℕ) (ho : o + K ≤ Kw) (c : Fin N) : EReal :=
  ∑ k : Fin K, a k * W (ix2 ⟨o + k.val, by have := k.isLt; omega⟩ c)

/-- A linear layer on two rows side by side, split: `a` against the first `K` rows of `W`, `b` against the next
    `K`, plus the bias. -/
def lin2 {K Kw N : ℕ} (h : K + K = Kw) (a b : Fin K → EReal) (W : Mat Kw N) (bias : Vc N) (c : Fin N) : EReal :=
  (band a W 0 (by omega) c + band b W K (by omega) c) + bias (ix1 c)

/-- A linear layer on three rows side by side, split into three bands, grouped as the first two then the third. -/
def lin3 {K Kw N : ℕ} (h : K + K + K = Kw) (a b d : Fin K → EReal) (W : Mat Kw N) (bias : Vc N) (c : Fin N) : EReal :=
  ((band a W 0 (by omega) c + band b W K (by omega) c) + band d W (K + K) (by omega) c) + bias (ix1 c)

/-- The first layer, one sign: the hyperbolic tangent of a linear layer on (aggregated neighbours, own features). -/
def conv1row (ag x : Fin 64 → EReal) (W : Mat 128 32) (bias : Vc 32) : Fin 32 → EReal :=
  fun c => Ideal.tanh (lin2 (K := 64) rfl ag x W bias c)

/-- The second layer's hidden row, one sign. -/
def hidden2row (a b z : Fin 32 → EReal) (W : Mat 96 32) (bias : Vc 32) : Fin 32 → EReal :=
  fun c => Ideal.tanh (lin3 (K := 32) rfl a b z W bias c)

/-- The second layer with the output layer: both signs' hidden rows, side by side, through the last linear layer
    and a hyperbolic tangent. -/
def conv2row (a1 a2 a3 a4 zp zn : Fin 32 → EReal) (w2p : Mat 96 32) (b2p : Vc 32) (w2n : Mat 96 32) (b2n : Vc 32)
    (wout : Mat 64 64) (bout : Vc 64) : Fin 64 → EReal :=
  fun c => Ideal.tanh (lin2 (K := 32) rfl (hidden2row a1 a2 zp w2p b2p) (hidden2row a3 a4 zn w2n b2n) wout bout c)

end Cert.Rows

end
-- ==== Proof.LibPlainDot.lean ====
/-
  A contraction of an M×K array with a K×N array over their shared axis, read at one position.

  Both the accelerator's matrix product into a zero accumulator and the host's general dot product, at the
  exact extended-real values, are at position (r, c) the finite sum over k of lhs (r, k) * rhs (k, c):
  no rounding and no order of accumulation is left in them. The dimension numbers are the plain ones
  (left operand contracted on its last axis, right operand on its first, no batch axes); any record with
  those numbers is the plain record, whatever proof of well-formedness it carries.
-/
import Idealize.ShloMosaic.PureOps.Ideal.Laws
import Idealize.ShloMosaic.Lib.ValueIdx

noncomputable section

open scoped BigOperators

namespace Cert.PlainDot

open Idealize.ShloMosaic Idealize.ShloMosaic.ValueIdx

/-- The contraction shape of a plain M×K by K×N product has one axis. -/
theorem contr_rank (M K N : ℕ) : (DotDims.plain M K N).contr.rank = 1 := rfl

/-- That axis has the shared extent K. -/
theorem contr_size (M K N : ℕ) : (DotDims.plain M K N).contr.size ⟨0, by rw [contr_rank]; exact Nat.one_pos⟩ = K := rfl

/-- The left operand's position for output position (r, c) and contraction coordinate k is (r, k). -/
theorem lhsIdx_eq {M K N : ℕ} (r : Fin M) (c : Fin N) (k : Fin K) :
    (DotDims.plain M K N).lhsIdx (ix2 r c) ((contrEquiv1 (DotDims.plain M K N) K (contr_rank M K N) (contr_size M K N)).symm k)
      = ix2 r k := by
  funext a
  refine Fin.ext ?_
  match a with
  | ⟨0, _⟩ => rfl
  | ⟨1, _⟩ =>
    exact ((DotDims.plain M K N).lhsIdx_val_of_single (cl := (1 : Fin 2)) rfl _ _).trans
      (contrEquiv1_symm_val (DotDims.plain M K N) K (contr_rank M K N) (contr_size M K N) k)

/-- The right operand's position is (k, c). -/
theorem rhsIdx_eq {M K N : ℕ} (r : Fin M) (c : Fin N) (k : Fin K) :
    (DotDims.plain M K N).rhsIdx (ix2 r c) ((contrEquiv1 (DotDims.plain M K N) K (contr_rank M K N) (contr_size M K N)).symm k)
      = ix2 k c := by
  funext a
  refine Fin.ext ?_
  match a with
  | ⟨0, _⟩ =>
    exact ((DotDims.plain M K N).rhsIdx_val_of_single (cr := (0 : Fin 2)) rfl _ _).trans
      (contrEquiv1_symm_val (DotDims.plain M K N) K (contr_rank M K N) (contr_size M K N) k)
  | ⟨1, _⟩ => rfl

/-- The contraction's sum over its index set is the sum over k < K of the products along row r and column c. -/
theorem sum_eq {M K N : ℕ} (f : (⟨2, ![M, K]⟩ : Shape).Idx → EReal) (g : (⟨2, ![K, N]⟩ : Shape).Idx → EReal)
    (r : Fin M) (c : Fin N) :
    ∑ k : (DotDims.plain M K N).contr.Idx,
        f ((DotDims.plain M K N).lhsIdx (ix2 r c) k) * g ((DotDims.plain M K N).rhsIdx (ix2 r c) k)
      = ∑ k : Fin K, f (ix2 r k) * g (ix2 k c) := by
  rw [← Equiv.sum_comp (contrEquiv1 (DotDims.plain M K N) K (contr_rank M K N) (contr_size M K N)).symm]
  refine Finset.sum_congr rfl fun k _ => ?_
  rw [lhsIdx_eq, rhsIdx_eq]

/-- The accelerator's matrix product into the zero accumulator, at (r, c). -/
theorem matmul_zero_apply {M K N : ℕ} (d : DotDims ⟨2, ![M, K]⟩ ⟨2, ![K, N]⟩ ⟨2, ![M, N]⟩) (hd : d = DotDims.plain M K N)
    (prec : Option ContractPrecision) (lhs : FVec Ideal ⟨2, ![M, K]⟩ .f32) (rhs : FVec Ideal ⟨2, ![K, N]⟩ .f32)
    (r : Fin M) (c : Fin N) :
    FloatOps.matmul d prec lhs rhs (constant ⟨2, ![M, N]⟩ .f32 0x00000000#32) (ix2 r c)
      = ∑ k : Fin K, lhs (ix2 r k) * rhs (ix2 k c) := by
  subst hd
  rw [Ideal.matmul_constant_zero_apply]
  exact sum_eq lhs rhs r c

/-- The host's general dot product, at (r, c), whatever its schedule. -/
theorem dotGeneral_apply {M K N : ℕ} (d : DotDims ⟨2, ![M, K]⟩ ⟨2, ![K, N]⟩ ⟨2, ![M, N]⟩) (hd : d = DotDims.plain M K N)
    (prec : Option ContractPrecision) (sched : HostSchedule) (lhs : FVec Ideal ⟨2, ![M, K]⟩ .f32) (rhs : FVec Ideal ⟨2, ![K, N]⟩ .f32)
    (r : Fin M) (c : Fin N) :
    FloatOps.dotGeneral d prec sched lhs rhs (ix2 r c) = ∑ k : Fin K, lhs (ix2 r k) * rhs (ix2 k c) := by
  subst hd
  rw [Ideal.dotGeneral_apply]
  exact sum_eq lhs rhs r c

end Cert.PlainDot

end
-- ==== Proof.BlockRows.lean ====
/-
  What one grid point of each kernel computes, one output entry at a time.

  A grid point works on a block of 5000 consecutive nodes. Entry (p, q) of an output block depends only on row
  p of each input block and on the weights: it is the layer's row function (RowSpec) applied to those rows.

  The ingredients: a block product into a zero accumulator is, at (p, q), the sum over k of lhs (p, k) · rhs (k, q);
  the narrowing of an operand to a shorter float format changes nothing at exact values; a band of K rows of a
  weight matrix loaded from row o holds at (k, q) the matrix's entry (o + k, q); a bias of length n seen as one row
  and repeated down the block reads bias q at (p, q).
-/
import proofs.«120313_j78408922956333_1_alg».proof.Proof.Gen.KernelIdeal.Frame
import proofs.«120313_j78408922956333_1_alg».proof.Proof.RowSpec
import proofs.«120313_j78408922956333_1_alg».proof.Proof.LibPlainDot
import Idealize.ShloMosaic.Lib.ValueLayout
import Idealize.ShloMosaic.Lib.Pipeline.Value
import Idealize.ShloMosaic.PureOps.Ideal.Laws

noncomputable section

open scoped BigOperators

namespace Cert.KernelIdeal.BlockRows

open Cert.KernelIdeal Cert.KernelIdeal.Gen Cert.Rows Idealize.ShloMosaic Idealize.ShloMosaic.ValueIdx

theorem zero2 : (![0, 0] : Fin 2 → Nat) = fun _ => 0 := by
  funext a
  match a with
  | ⟨0, _⟩ => rfl
  | ⟨1, _⟩ => rfl

theorem zero1 : (![0] : Fin 1 → Nat) = fun _ => 0 := by
  funext a
  match a with
  | ⟨0, _⟩ => rfl

/-- A block product into the zero accumulator at (r, c), whatever float formats the operands are held in. -/
theorem mm_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  subst hd
  rw [Ideal.matmul_constant_zero_apply]
  exact Cert.PlainDot.sum_eq lhs rhs r c

/-- A band of `K` rows of a matrix, loaded from row `o` at full width: entry (k, q) is the matrix's (o + k, q). -/
theorem ld_band {Val : EltTy → Type} {e : EltTy} {Kw K N : ℕ} (W : (⟨2, ![Kw, N]⟩ : Shape).Idx → Val e) (o : ℕ)
    (inb : ∀ a, (![o, 0] : Fin 2 → ℕ) a + (![K, N] : Fin 2 → ℕ) a ≤ (⟨2, ![Kw, N]⟩ : Shape).size a)
    (k : Fin K) (q : Fin N) (hk : o + k.val < Kw) :
    View.ld W (Rect.unit (s := ⟨2, ![Kw, N]⟩) ![o, 0] ![K, N] inb) (ix2 k q) = W (ix2 ⟨o + k.val, hk⟩ q) := by
  show W ((Rect.unit (s := ⟨2, ![Kw, N]⟩) ![o, 0] ![K, N] inb).idx (ix2 k q)) = W (ix2 ⟨o + k.val, hk⟩ q)
  refine congrArg W (funext fun a => Fin.ext ?_)
  match a with
  | ⟨0, _⟩ => show o + 1 * k.val = o + k.val; omega
  | ⟨1, _⟩ => show 0 + 1 * q.val = q.val; omega

/-- A length-`n` bias seen as one row and repeated down `m` rows reads `bias q` at (p, q). -/
theorem bias_apply {m n : ℕ} (v : (⟨1, ![n]⟩ : Shape).Idx → EReal)
    (h₁ : (⟨1, ![n]⟩ : Shape).ShapeCasts ⟨2, ![1, n]⟩) (h₂ : (⟨2, ![1, n]⟩ : Shape).Broadcasts ⟨2, ![m, n]⟩)
    (p : Fin m) (q : Fin n) :
    broadcastTo ⟨2, ![m, n]⟩ (shapeCast ⟨2, ![1, n]⟩ v h₁) h₂ (ix2 p q) = v (ix1 q) := by
  rw [broadcastTo_1b_ab_apply, shapeCast_a_1a_apply]

/-! ## The first kernel -/

/-- The first kernel's stored value at (p, q), as sums. -/
theorem k0_pay2_apply (v0 v6 : Vec Ideal S5000x64 .f32) (v8 v10 : Vec Ideal S64x32 .f32) (v19 : Vec Ideal S32 .f32)
    (p : Fin 5000) (q : Fin 32) :
    k0_pay2 (F := Ideal) v0 v6 v8 v10 v19 (ix2 p q)
      = Ideal.tanh (((∑ k : Fin 64, v0 (ix2 p k) * v8 (ix2 k q)) + ∑ k : Fin 64, v6 (ix2 p k) * v10 (ix2 k q))
          + v19 (ix1 q)) := by
  unfold k0_pay2 k0_pay1
  simp only [shapeCast_self]
  refine congrArg Ideal.tanh (congrArg₂ (· + ·) (congrArg₂ (· + ·) ?_ ?_) ?_)
  · exact mm_apply _ rfl none _ _ p q
  · exact mm_apply _ rfl none _ _ p q
  · exact bias_apply v19 _ _ p q

theorem k0_pay3_apply (v3 v6 : Vec Ideal S5000x64 .f32) (v12 v14 : Vec Ideal S64x32 .f32) (v26 : Vec Ideal S32 .f32)
    (p : Fin 5000) (q : Fin 32) :
    k0_pay3 (F := Ideal) v3 v6 v12 v14 v26 (ix2 p q)
      = Ideal.tanh (((∑ k : Fin 64, v3 (ix2 p k) * v12 (ix2 k q)) + ∑ k : Fin 64, v6 (ix2 p k) * v14 (ix2 k q))
          + v26 (ix1 q)) := by
  unfold k0_pay3 k0_pay1
  simp only [shapeCast_self]
  refine congrArg Ideal.tanh (congrArg₂ (· + ·) (congrArg₂ (· + ·) ?_ ?_) ?_)
  · exact mm_apply _ rfl none _ _ p q
  · exact mm_apply _ rfl none _ _ p q
  · exact bias_apply v26 _ _ p q

/-- One sign of the first layer on a block: entry (p, q) is the layer's row function of row p of the aggregated
    block and of the feature block. -/
theorem conv1_of_sums (ag x : Vec Ideal S5000x64 .f32) (W : Vec Ideal S128x32 .f32) (b : Vec Ideal S32 .f32)
    (p : Fin 5000) (q : Fin 32) :
    Ideal.tanh (((∑ k : Fin 64, View.ld ag r0_0 (ix2 p k) * View.ld W r0_1 (ix2 k q))
        + ∑ k : Fin 64, View.ld x r0_0 (ix2 p k) * View.ld W r0_2 (ix2 k q)) + View.ld b r0_3 (ix1 q))
      = conv1row (row ag p) (row x p) W b q := by
  unfold conv1row lin2 band row
  refine congrArg Ideal.tanh (congrArg₂ (· + ·) (congrArg₂ (· + ·) (Finset.sum_congr rfl fun k _ => ?_)
    (Finset.sum_congr rfl fun k _ => ?_)) ?_)
  · exact congrArg₂ (· * ·) (congrFun (View.ld_unit_zero zero2 _ ag) (ix2 p k)) (ld_band W 0 _ k q _)
  · exact congrArg₂ (· * ·) (congrFun (View.ld_unit_zero zero2 _ x) (ix2 p k)) (ld_band W 64 _ k q _)
  · exact congrFun (View.ld_unit_zero zero1 _ b) (ix1 q)

theorem out0_7_apply (x0 x1 x2 : Vec Ideal S5000x64 .f32) (x3 : Vec Ideal S128x32 .f32) (x4 : Vec Ideal S32 .f32)
    (x5 : Vec Ideal S128x32 .f32) (x6 : Vec Ideal S32 .f32) (p : Fin 5000) (q : Fin 32) :
    out0_7 (F := Ideal) x0 x1 x2 x3 x4 x5 x6 (ix2 p q) = conv1row (row x0 p) (row x2 p) x3 x4 q := by
  unfold out0_7
  rw [View.canon_unit_zero zero2, k0_pay2_apply]
  exact conv1_of_sums x0 x2 x3 x4 p q

theorem out0_8_apply (x0 x1 x2 : Vec Ideal S5000x64 .f32) (x3 : Vec Ideal S128x32 .f32) (x4 : Vec Ideal S32 .f32)
    (x5 : Vec Ideal S128x32 .f32) (x6 : Vec Ideal S32 .f32) (p : Fin 5000) (q : Fin 32) :
    out0_8 (F := Ideal) x0 x1 x2 x3 x4 x5 x6 (ix2 p q) = conv1row (row x1 p) (row x2 p) x5 x6 q := by
  unfold out0_8
  rw [View.canon_unit_zero zero2, k0_pay3_apply]
  exact conv1_of_sums x1 x2 x5 x6 p q

end Cert.KernelIdeal.BlockRows

end
-- ==== Proof.NodeSpec.lean ====
/-
  The two per-node layers over all nodes.

  Each layer, applied to arrays with one row per node, gives the array whose row r is the layer's row function
  (RowSpec) of row r of each input.
-/
import proofs.«120313_j78408922956333_1_alg».proof.Proof.RowSpec

noncomputable section

namespace Cert.Rows

open Idealize.ShloMosaic Idealize.ShloMosaic.ValueIdx

/-- The first layer, one sign, over `R` nodes. -/
def conv1 {R : ℕ} (AG X : Mat R 64) (W : Mat 128 32) (b : Vc 32) : Mat R 32 :=
  ofRows fun r => conv1row (row AG r) (row X r) W b

/-- The second layer with the output layer, over `R` nodes. -/
def conv2 {R : ℕ} (A1 A2 A3 A4 ZP ZN : Mat R 32) (w2p : Mat 96 32) (b2p : Vc 32) (w2n : Mat 96 32) (b2n : Vc 32)
    (wout : Mat 64 64) (bout : Vc 64) : Mat R 64 :=
  ofRows fun r => conv2row (row A1 r) (row A2 r) (row A3 r) (row A4 r) (row ZP r) (row ZN r) w2p b2p w2n b2n wout bout

theorem conv1_apply {R : ℕ} (AG X : Mat R 64) (W : Mat 128 32) (b : Vc 32) (r : Fin R) (c : Fin 32) :
    conv1 AG X W b (ix2 r c) = conv1row (row AG r) (row X r) W b c := rfl

theorem conv2_apply {R : ℕ} (A1 A2 A3 A4 ZP ZN : Mat R 32) (w2p : Mat 96 32) (b2p : Vc 32) (w2n : Mat 96 32) (b2n : Vc 32)
    (wout : Mat 64 64) (bout : Vc 64) (r : Fin R) (c : Fin 64) :
    conv2 A1 A2 A3 A4 ZP ZN w2p b2p w2n b2n wout bout (ix2 r c)
      = conv2row (row A1 r) (row A2 r) (row A3 r) (row A4 r) (row ZP r) (row ZN r) w2p b2p w2n b2n wout bout c := rfl

/-- A block's row function agrees with the whole array's when the block's row p is the array's row r. -/
theorem conv1row_block {R : ℕ} (x0 x2 : Mat 5000 64) (x3 : Mat 128 32) (x4 : Vc 32) (AG X : Mat R 64) (W : Mat 128 32) (b : Vc 32)
    (r : Fin R) (p : Fin 5000) (q : Fin 32)
    (h0 : ∀ k : Fin 64, x0 (ix2 p k) = AG (ix2 r k)) (h2 : ∀ k : Fin 64, x2 (ix2 p k) = X (ix2 r k))
    (h3 : x3 = W) (h4 : x4 = b) :
    conv1row (row x0 p) (row x2 p) x3 x4 q = conv1 AG X W b (ix2 r q) := by
  subst h3 h4
  rw [conv1_apply, show row x0 p = row AG r from funext h0, show row x2 p = row X r from funext h2]

theorem conv2row_block {R : ℕ} (x0 x1 x2 x3 x4 x5 : Mat 5000 32) (x6 : Mat 96 32) (x7 : Vc 32) (x8 : Mat 96 32) (x9 : Vc 32)
    (x10 : Mat 64 64) (x11 : Vc 64) (A1 A2 A3 A4 ZP ZN : Mat R 32) (w2p : Mat 96 32) (b2p : Vc 32) (w2n : Mat 96 32)
    (b2n : Vc 32) (wout : Mat 64 64) (bout : Vc 64) (r : Fin R) (p : Fin 5000) (q : Fin 64)
    (h0 : ∀ k : Fin 32, x0 (ix2 p k) = A1 (ix2 r k)) (h1 : ∀ k : Fin 32, x1 (ix2 p k) = A2 (ix2 r k))
    (h2 : ∀ k : Fin 32, x2 (ix2 p k) = A3 (ix2 r k)) (h3 : ∀ k : Fin 32, x3 (ix2 p k) = A4 (ix2 r k))
    (h4 : ∀ k : Fin 32, x4 (ix2 p k) = ZP (ix2 r k)) (h5 : ∀ k : Fin 32, x5 (ix2 p k) = ZN (ix2 r k))
    (h6 : x6 = w2p) (h7 : x7 = b2p) (h8 : x8 = w2n) (h9 : x9 = b2n) (h10 : x10 = wout) (h11 : x11 = bout) :
    conv2row (row x0 p) (row x1 p) (row x2 p) (row x3 p) (row x4 p) (row x5 p) x6 x7 x8 x9 x10 x11 q
      = conv2 A1 A2 A3 A4 ZP ZN w2p b2p w2n b2n wout bout (ix2 r q) := by
  subst h6 h7 h8 h9 h10 h11
  rw [conv2_apply, show row x0 p = row A1 r from funext h0, show row x1 p = row A2 r from funext h1,
    show row x2 p = row A3 r from funext h2, show row x3 p = row A4 r from funext h3,
    show row x4 p = row ZP r from funext h4, show row x5 p = row ZN r from funext h5]

end Cert.Rows

end
-- ==== Proof.Region0Value.lean ====
/-
  The first kernel's two output arrays after its run, at whatever contents the region is entered with.

  The grid has 20 points; point t works on nodes 5000 t … 5000 t + 4999: every feature window's block at t is
  those rows of its array, every weight window's block is the whole weight array. What point t writes back to
  an output window is therefore those rows of the first layer applied to the WHOLE input arrays; the 20 blocks
  tile the 100000 rows, so after the run each output array is the first layer of the input arrays.
-/
import proofs.«120313_j78408922956333_1_alg».proof.Proof.BlockRows
import proofs.«120313_j78408922956333_1_alg».proof.Proof.NodeSpec

set_option maxRecDepth 16384

noncomputable section

namespace Cert.KernelIdeal.Region0

open Cert.KernelIdeal Cert.KernelIdeal.Gen Cert.KernelIdeal.BlockRows Cert.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: a feature window's block index at point t is (t, 0), a weight
    window's is zero. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 20 := lt_of_lt_of_eq t.isLt N_0

/-! ## The input blocks at a point, read off their arrays -/

theorem blk0 (c : Dev nD) (t : Fin cfg0.N) (p : Fin 5000) (k : Fin 64) :
    iblk0 V c 0 t (ix2 p k) = (V c main_v24 : Mat 100000 64) (ix2 ⟨5000 * t.val + p.val, by have := t_lt t; omega⟩ k) := by
  show V c main_v24 (((cfg0.win 0).blk t).view.emb (ix2 p k)) = _
  refine congrArg (V c main_v24) (funext fun a => Fin.ext ?_)
  obtain ⟨e0, e1, -⟩ := idx0 t
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

theorem blk1 (c : Dev nD) (t : Fin cfg0.N) (p : Fin 5000) (k : Fin 64) :
    iblk0 V c 1 t (ix2 p k) = (V c main_v49 : Mat 100000 64) (ix2 ⟨5000 * t.val + p.val, by have := t_lt t; omega⟩ k) := by
  show V c main_v49 (((cfg0.win 1).blk t).view.emb (ix2 p k)) = _
  refine congrArg (V c main_v49) (funext fun a => Fin.ext ?_)
  obtain ⟨-, -, e0, e1, -⟩ := idx0 t
  match a with
  | ⟨0, _⟩ => show win0_1.index t (0 : Fin 2) * 5000 + 1 * p.val = 5000 * t.val + p.val; rw [e0]; omega
  | ⟨1, _⟩ => show win0_1.index t (1 : Fin 2) * 64 + 1 * k.val = k.val; rw [e1]; omega

theorem blk2 (c : Dev nD) (t : Fin cfg0.N) (p : Fin 5000) (k : Fin 64) :
    iblk0 V c 2 t (ix2 p k) = (V c main_arg4 : Mat 100000 64) (ix2 ⟨5000 * t.val + p.val, by have := t_lt t; omega⟩ k) := by
  show V c main_arg4 (((cfg0.win 2).blk t).view.emb (ix2 p k)) = _
  refine congrArg (V c main_arg4) (funext fun a => Fin.ext ?_)
  obtain ⟨-, -, -, -, e0, e1, -⟩ := idx0 t
  match a with
  | ⟨0, _⟩ => show win0_2.index t (0 : Fin 2) * 5000 + 1 * p.val = 5000 * t.val + p.val; rw [e0]; omega
  | ⟨1, _⟩ => show win0_2.index t (1 : Fin 2) * 64 + 1 * k.val = k.val; rw [e1]; omega

theorem blk3 (c : Dev nD) (t : Fin cfg0.N) : (iblk0 V c 3 t : Mat 128 32) = V c main_arg5 := by
  funext y
  show V c main_arg5 (((cfg0.win 3).blk t).view.emb y) = _
  refine congrArg (V c main_arg5) (funext fun a => Fin.ext ?_)
  obtain ⟨-, -, -, -, -, -, e0, e1, -⟩ := idx0 t
  match a with
  | ⟨0, _⟩ => show win0_3.index t (0 : Fin 2) * 128 + 1 * (y 0).val = (y 0).val; rw [e0]; omega
  | ⟨1, _⟩ => show win0_3.index t (1 : Fin 2) * 32 + 1 * (y 1).val = (y 1).val; rw [e1]; omega

theorem blk4 (c : Dev nD) (t : Fin cfg0.N) : (iblk0 V c 4 t : Vc 32) = V c main_arg6 := by
  funext y
  show V c main_arg6 (((cfg0.win 4).blk t).view.emb y) = _
  refine congrArg (V c main_arg6) (funext fun a => Fin.ext ?_)
  obtain ⟨-, -, -, -, -, -, -, -, e0, -⟩ := idx0 t
  match a with
  | ⟨0, _⟩ => show win0_4.index t (0 : Fin 1) * 32 + 1 * (y 0).val = (y 0).val; rw [e0]; omega

theorem blk5 (c : Dev nD) (t : Fin cfg0.N) : (iblk0 V c 5 t : Mat 128 32) = V c main_arg7 := by
  funext y
  show V c main_arg7 (((cfg0.win 5).blk t).view.emb y) = _
  refine congrArg (V c main_arg7) (funext fun a => Fin.ext ?_)
  obtain ⟨-, -, -, -, -, -, -, -, -, e0, e1, -⟩ := idx0 t
  match a with
  | ⟨0, _⟩ => show win0_5.index t (0 : Fin 2) * 128 + 1 * (y 0).val = (y 0).val; rw [e0]; omega
  | ⟨1, _⟩ => show win0_5.index t (1 : Fin 2) * 32 + 1 * (y 1).val = (y 1).val; rw [e1]; omega

theorem blk6 (c : Dev nD) (t : Fin cfg0.N) : (iblk0 V c 6 t : Vc 32) = V c main_arg8 := by
  funext y
  show V c main_arg8 (((cfg0.win 6).blk t).view.emb y) = _
  refine congrArg (V c main_arg8) (funext fun a => Fin.ext ?_)
  obtain ⟨-, -, -, -, -, -, -, -, -, -, -, e0, -⟩ := idx0 t
  match a with
  | ⟨0, _⟩ => show win0_6.index t (0 : Fin 1) * 32 + 1 * (y 0).val = (y 0).val; rw [e0]; omega

/-! ## What a point writes back -/

/-- Point t's write-back to the positive sign's output window: rows 5000 t … of the first layer of the whole
    arrays. -/
theorem flushed7_eq (c : Dev nD) (t : Fin cfg0.N) :
    (dat0 V c).flushed 7 t = ((cfg0.win 7).blk t).view.read (Elt Ideal)
      (conv1 (V c main_v24 : Mat 100000 64) (V c main_arg4 : Mat 100000 64) (V c main_arg5 : Mat 128 32) (V c main_arg6 : Vc 32)) := by
  show (cfg0.win 7).cut (grid0.coords t) ((dat0 V c).after 7 t) = _
  rw [after0_7]
  funext j
  obtain ⟨p, q, rfl⟩ : ∃ (p : Fin 5000) (q : Fin 32), j = ix2 p q := ⟨j 0, j 1, eq_ix2 j⟩
  have ht := t_lt t
  show out0_7 (iblk0 V c 0 t) (iblk0 V c 1 t) (iblk0 V c 2 t) (iblk0 V c 3 t) (iblk0 V c 4 t) (iblk0 V c 5 t) (iblk0 V c 6 t) (ix2 p q)
      = conv1 (V c main_v24 : Mat 100000 64) (V c main_arg4 : Mat 100000 64) (V c main_arg5 : Mat 128 32) (V c main_arg6 : Vc 32)
          (((cfg0.win 7).blk t).view.emb (ix2 p q))
  have hemb : ((cfg0.win 7).blk t).view.emb (ix2 p q) = (ix2 ⟨5000 * t.val + p.val, by omega⟩ q : (⟨2, ![100000, 32]⟩ : Shape).Idx) := by
    obtain ⟨-, -, -, -, -, -, -, -, -, -, -, -, e0, e1, -⟩ := idx0 t
    funext a; apply Fin.ext
    match a with
    | ⟨0, _⟩ => show win0_7.index t (0 : Fin 2) * 5000 + 1 * p.val = 5000 * t.val + p.val; rw [e0]; omega
    | ⟨1, _⟩ => show win0_7.index t (1 : Fin 2) * 32 + 1 * q.val = q.val; rw [e1]; omega
  refine (out0_7_apply (iblk0 V c 0 t) (iblk0 V c 1 t) (iblk0 V c 2 t) (iblk0 V c 3 t) (iblk0 V c 4 t) (iblk0 V c 5 t) (iblk0 V c 6 t) p q).trans ?_
  refine Eq.trans ?_ (congrArg (conv1 (V c main_v24 : Mat 100000 64) (V c main_arg4 : Mat 100000 64) (V c main_arg5 : Mat 128 32) (V c main_arg6 : Vc 32)) hemb.symm)
  exact conv1row_block (iblk0 V c 0 t) (iblk0 V c 2 t) (iblk0 V c 3 t) (iblk0 V c 4 t) _ _ _ _ ⟨5000 * t.val + p.val, by omega⟩ p q
    (blk0 V c t p) (blk2 V c t p) (blk3 V c t) (blk4 V c t)

/-- The same for the negative sign's output window. -/
theorem flushed8_eq (c : Dev nD) (t : Fin cfg0.N) :
    (dat0 V c).flushed 8 t = ((cfg0.win 8).blk t).view.read (Elt Ideal)
      (conv1 (V c main_v49 : Mat 100000 64) (V c main_arg4 : Mat 100000 64) (V c main_arg7 : Mat 128 32) (V c main_arg8 : Vc 32)) := by
  show (cfg0.win 8).cut (grid0.coords t) ((dat0 V c).after 8 t) = _
  rw [after0_8]
  funext j
  obtain ⟨p, q, rfl⟩ : ∃ (p : Fin 5000) (q : Fin 32), j = ix2 p q := ⟨j 0, j 1, eq_ix2 j⟩
  have ht := t_lt t
  show out0_8 (iblk0 V c 0 t) (iblk0 V c 1 t) (iblk0 V c 2 t) (iblk0 V c 3 t) (iblk0 V c 4 t) (iblk0 V c 5 t) (iblk0 V c 6 t) (ix2 p q)
      = conv1 (V c main_v49 : Mat 100000 64) (V c main_arg4 : Mat 100000 64) (V c main_arg7 : Mat 128 32) (V c main_arg8 : Vc 32)
          (((cfg0.win 8).blk t).view.emb (ix2 p q))
  have hemb : ((cfg0.win 8).blk t).view.emb (ix2 p q) = (ix2 ⟨5000 * t.val + p.val, by omega⟩ q : (⟨2, ![100000, 32]⟩ : Shape).Idx) := by
    obtain ⟨-, -, -, -, -, -, -, -, -, -, -, -, -, -, e0, e1⟩ := idx0 t
    funext a; apply Fin.ext
    match a with
    | ⟨0, _⟩ => show win0_8.index t (0 : Fin 2) * 5000 + 1 * p.val = 5000 * t.val + p.val; rw [e0]; omega
    | ⟨1, _⟩ => show win0_8.index t (1 : Fin 2) * 32 + 1 * q.val = q.val; rw [e1]; omega
  refine (out0_8_apply (iblk0 V c 0 t) (iblk0 V c 1 t) (iblk0 V c 2 t) (iblk0 V c 3 t) (iblk0 V c 4 t) (iblk0 V c 5 t) (iblk0 V c 6 t) p q).trans ?_
  refine Eq.trans ?_ (congrArg (conv1 (V c main_v49 : Mat 100000 64) (V c main_arg4 : Mat 100000 64) (V c main_arg7 : Mat 128 32) (V c main_arg8 : Vc 32)) hemb.symm)
  exact conv1row_block (iblk0 V c 1 t) (iblk0 V c 2 t) (iblk0 V c 5 t) (iblk0 V c 6 t) _ _ _ _ ⟨5000 * t.val + p.val, by omega⟩ p q
    (blk1 V c t p) (blk2 V c t p) (blk5 V c t) (blk6 V c t)

/-! ## The blocks tile the rows -/

theorem mem_blk7 (t : Fin cfg0.N) (i : S100000x32.Idx) :
    i ∈ ((cfg0.win 7).blk t).view.set ↔ ∀ a : Fin 2, win0_7.index t a * S5000x32.size a ≤ (i a).val
      ∧ (i a).val < win0_7.index t a * S5000x32.size a + S5000x32.size a := by
  show i ∈ ((View.whole main_v50_0).slice (win0_7.rect t)).set ↔ _
  rw [View.set_slice_whole, Rect.mem_set_unit]
  exact Iff.rfl

theorem mem_blk8 (t : Fin cfg0.N) (i : S100000x32.Idx) :
    i ∈ ((cfg0.win 8).blk t).view.set ↔ ∀ a : Fin 2, win0_8.index t a * S5000x32.size a ≤ (i a).val
      ∧ (i a).val < win0_8.index t a * S5000x32.size a + S5000x32.size a := by
  show i ∈ ((View.whole main_v50_1).slice (win0_8.rect t)).set ↔ _
  rw [View.set_slice_whole, Rect.mem_set_unit]
  exact Iff.rfl

/-- Row r belongs to the block of point r / 5000. -/
theorem cover7 (i : S100000x32.Idx) :
    ∃ t : Fin cfg0.N, (cfg0.win 7).flush t = true ∧ i ∈ ((cfg0.win 7).blk t).view.set := by
  have hi0 : (i 0).val < 100000 := (i 0).isLt
  have hi1 : (i 1).val < 32 := (i 1).isLt
  have hN : cfg0.N = 20 := N_0
  have hlt : (i 0).val / 5000 < cfg0.N := by rw [hN]; omega
  refine ⟨⟨(i 0).val / 5000, hlt⟩, flush0_7 _, ?_⟩
  rw [mem_blk7]
  obtain ⟨-, -, -, -, -, -, -, -, -, -, -, -, e0, e1, -⟩ := idx0 ⟨(i 0).val / 5000, hlt⟩
  intro a
  match a with
  | ⟨0, _⟩ =>
    show win0_7.index ⟨(i 0).val / 5000, hlt⟩ (0 : Fin 2) * 5000 ≤ (i 0).val
      ∧ (i 0).val < win0_7.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, hlt⟩ (1 : Fin 2) * 32 ≤ (i 1).val
      ∧ (i 1).val < win0_7.index ⟨(i 0).val / 5000, hlt⟩ (1 : Fin 2) * 32 + 32
    rw [e1]; omega

theorem cover8 (i : S100000x32.Idx) :
    ∃ t : Fin cfg0.N, (cfg0.win 8).flush t = true ∧ i ∈ ((cfg0.win 8).blk t).view.set := by
  have hi0 : (i 0).val < 100000 := (i 0).isLt
  have hi1 : (i 1).val < 32 := (i 1).isLt
  have hN : cfg0.N = 20 := N_0
  have hlt : (i 0).val / 5000 < cfg0.N := by rw [hN]; omega
  refine ⟨⟨(i 0).val / 5000, hlt⟩, flush0_8 _, ?_⟩
  rw [mem_blk8]
  obtain ⟨-, -, -, -, -, -, -, -, -, -, -, -, -, -, e0, e1⟩ := idx0 ⟨(i 0).val / 5000, hlt⟩
  intro a
  match a with
  | ⟨0, _⟩ =>
    show win0_8.index ⟨(i 0).val / 5000, hlt⟩ (0 : Fin 2) * 5000 ≤ (i 0).val
      ∧ (i 0).val < win0_8.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_8.index ⟨(i 0).val / 5000, hlt⟩ (1 : Fin 2) * 32 ≤ (i 1).val
      ∧ (i 1).val < win0_8.index ⟨(i 0).val / 5000, hlt⟩ (1 : Fin 2) * 32 + 32
    rw [e1]; omega

/-! ## The output arrays after the run -/

/-- The positive sign's output array: the first layer of (aggregated positive neighbours, features). -/
theorem final7 (c : Dev nD) :
    (dat0 V c).arrAt 7 cfg0.N
      = conv1 (V c main_v24 : Mat 100000 64) (V c main_arg4 : Mat 100000 64) (V c main_arg5 : Mat 128 32) (V c main_arg6 : Vc 32) :=
  (dat0 V c).arrAt_eq_of_cover 7 _ (fun t _ => flushed7_eq V c t) cover7

/-- The negative sign's output array. -/
theorem final8 (c : Dev nD) :
    (dat0 V c).arrAt 8 cfg0.N
      = conv1 (V c main_v49 : Mat 100000 64) (V c main_arg4 : Mat 100000 64) (V c main_arg7 : Mat 128 32) (V c main_arg8 : Vc 32) :=
  (dat0 V c).arrAt_eq_of_cover 8 _ (fun t _ => flushed8_eq V c t) cover8

end Cert.KernelIdeal.Region0

end
-- ==== Proof.BlockRows2.lean ====
/-
  What one grid point of the second kernel computes, one output entry at a time.

  Entry (p, q) of the output block is the second layer's row function (RowSpec) of row p of the six input blocks:
  each sign's hidden row is the hyperbolic tangent of three block products with the three bands of that sign's
  weight matrix plus its bias, and the output is the hyperbolic tangent of the two hidden rows' products with the
  two bands of the last weight matrix plus the last bias.
-/
import proofs.«120313_j78408922956333_1_alg».proof.Proof.BlockRows

noncomputable section

open scoped BigOperators

namespace Cert.KernelIdeal.BlockRows

open Cert.KernelIdeal Cert.KernelIdeal.Gen Cert.Rows Idealize.ShloMosaic Idealize.ShloMosaic.ValueIdx

/-- Narrowing a block to the shorter float format leaves its exact values. -/
theorem k1_pay2_eq (v : Vec Ideal S5000x32 .f32) (i : S5000x32.Idx) : k1_pay2 (F := Ideal) v i = v i := by
  unfold k1_pay2; simp only [shapeCast_self]; rfl
theorem k1_pay3_eq (v : Vec Ideal S5000x32 .f32) (i : S5000x32.Idx) : k1_pay3 (F := Ideal) v i = v i := by
  unfold k1_pay3; simp only [shapeCast_self]; rfl
theorem k1_pay4_eq (v : Vec Ideal S5000x32 .f32) (i : S5000x32.Idx) : k1_pay4 (F := Ideal) v i = v i := by
  unfold k1_pay4; simp only [shapeCast_self]; rfl
theorem k1_pay5_eq (v : Vec Ideal S5000x32 .f32) (i : S5000x32.Idx) : k1_pay5 (F := Ideal) v i = v i := by
  unfold k1_pay5; simp only [shapeCast_self]; rfl

/-- The first two products of the positive sign's hidden row, at (p, k). -/
theorem k1_pay10_apply (v0 v3 : Vec Ideal S5000x32 .f32) (v18 v20 : Vec Ideal S32x32 .f32) (p : Fin 5000) (k : Fin 32) :
    k1_pay10 (F := Ideal) v0 v3 v18 v20 (ix2 p k)
      = (∑ j : Fin 32, v0 (ix2 p j) * v18 (ix2 j k)) + ∑ j : Fin 32, v3 (ix2 p j) * v20 (ix2 j k) := by
  unfold k1_pay10
  simp only [shapeCast_self]
  exact congrArg₂ (· + ·) (mm_apply _ rfl none _ _ p k) (mm_apply _ rfl none _ _ p k)

/-- The second kernel's stored value at (p, q), as sums. -/
theorem k1_pay1_apply (v8 v11 v14 v17 : FVec Ideal S5000x32 .bf16) (v23 v25 v27 v29 : FVec Ideal S32x32 .bf16)
    (v32 : FVec Ideal S5000x32 .f32) (v35 v44 : Vec Ideal S32 .f32) (v52 v54 : Vec Ideal S32x64 .f32)
    (v59 : Vec Ideal S64 .f32) (p : Fin 5000) (q : Fin 64) :
    k1_pay1 (F := Ideal) v8 v11 v14 v17 v23 v25 v27 v29 v32 v35 v44 v52 v54 v59 (ix2 p q)
      = Ideal.tanh (((∑ k : Fin 32,
            Ideal.tanh ((v32 (ix2 p k) + ∑ j : Fin 32, v14 (ix2 p j) * v23 (ix2 j k)) + v35 (ix1 k)) * v52 (ix2 k q))
          + ∑ k : Fin 32,
            Ideal.tanh ((((∑ j : Fin 32, v8 (ix2 p j) * v25 (ix2 j k)) + ∑ j : Fin 32, v11 (ix2 p j) * v27 (ix2 j k))
              + ∑ j : Fin 32, v17 (ix2 p j) * v29 (ix2 j k)) + v44 (ix1 k)) * v54 (ix2 k q))
          + v59 (ix1 q)) := by
  unfold k1_pay1
  refine congrArg Ideal.tanh (congrArg₂ (· + ·) (congrArg₂ (· + ·) ?_ ?_) ?_)
  · refine (mm_apply _ rfl none _ _ p q).trans (Finset.sum_congr rfl fun k _ => congrArg (· * v52 (ix2 k q)) ?_)
    refine congrArg Ideal.tanh (congrArg₂ (· + ·) (congrArg₂ (· + ·) rfl ?_) ?_)
    · exact mm_apply _ rfl none _ _ p k
    · exact bias_apply v35 _ _ p k
  · refine (mm_apply _ rfl none _ _ p q).trans (Finset.sum_congr rfl fun k _ => congrArg (· * v54 (ix2 k q)) ?_)
    refine congrArg Ideal.tanh (congrArg₂ (· + ·) (congrArg₂ (· + ·) (congrArg₂ (· + ·) ?_ ?_) ?_) ?_)
    · exact mm_apply _ rfl none _ _ p k
    · exact mm_apply _ rfl none _ _ p k
    · exact mm_apply _ rfl none _ _ p k
    · exact bias_apply v44 _ _ p k
  · exact bias_apply v59 _ _ p q

/-- Row p of a loaded block against a loaded band of a 96-row weight matrix is the band product of RowSpec. -/
theorem band96 (x : Vec Ideal S5000x32 .f32) (W : Vec Ideal S96x32 .f32) (o : ℕ)
    (inb : ∀ a, (![o, 0] : Fin 2 → ℕ) a + (![32, 32] : Fin 2 → ℕ) a ≤ S96x32.size a) (ho : o + 32 ≤ 96)
    (p : Fin 5000) (k : Fin 32) :
    (∑ j : Fin 32, View.ld x r1_0 (ix2 p j) * View.ld W (Rect.unit (s := S96x32) ![o, 0] ![32, 32] inb) (ix2 j k))
      = band (row x p) W o ho k := by
  unfold band row
  refine Finset.sum_congr rfl fun j _ => ?_
  exact congrArg₂ (· * ·) (congrFun (View.ld_unit_zero zero2 _ x) (ix2 p j)) (ld_band W o inb j k _)

theorem out1_12_apply (x0 x1 x2 x3 x4 x5 : Vec Ideal S5000x32 .f32) (x6 : Vec Ideal S96x32 .f32) (x7 : Vec Ideal S32 .f32)
    (x8 : Vec Ideal S96x32 .f32) (x9 : Vec Ideal S32 .f32) (x10 : Vec Ideal S64x64 .f32) (x11 : Vec Ideal S64 .f32)
    (p : Fin 5000) (q : Fin 64) :
    out1_12 (F := Ideal) x0 x1 x2 x3 x4 x5 x6 x7 x8 x9 x10 x11 (ix2 p q)
      = conv2row (row x0 p) (row x1 p) (row x2 p) (row x3 p) (row x4 p) (row x5 p) x6 x7 x8 x9 x10 x11 q := by
  unfold out1_12
  rw [View.canon_unit_zero zero2, k1_pay1_apply]
  unfold conv2row lin2
  refine congrArg Ideal.tanh (congrArg₂ (· + ·) (congrArg₂ (· + ·) ?_ ?_) ?_)
  · -- the positive sign's hidden row against the first band of the last weight matrix
    unfold band
    refine Finset.sum_congr rfl fun k _ => congrArg₂ (· * ·) ?_ (ld_band x10 0 _ k q _)
    unfold hidden2row lin3
    refine congrArg Ideal.tanh (congrArg₂ (· + ·) (congrArg₂ (· + ·) ?_ ?_) ?_)
    · rw [k1_pay10_apply]
      exact congrArg₂ (· + ·) (band96 x0 x6 0 _ _ p k) (band96 x1 x6 32 _ _ p k)
    · simp only [k1_pay4_eq]
      exact band96 x4 x6 64 _ _ p k
    · exact congrFun (View.ld_unit_zero zero1 _ x7) (ix1 k)
  · -- the negative sign's hidden row against the second band
    unfold band
    refine Finset.sum_congr rfl fun k _ => congrArg₂ (· * ·) ?_ (ld_band x10 32 _ k q _)
    unfold hidden2row lin3
    refine congrArg Ideal.tanh (congrArg₂ (· + ·) (congrArg₂ (· + ·) (congrArg₂ (· + ·) ?_ ?_) ?_) ?_)
    · simp only [k1_pay2_eq]
      exact band96 x2 x8 0 _ _ p k
    · simp only [k1_pay3_eq]
      exact band96 x3 x8 32 _ _ p k
    · simp only [k1_pay5_eq]
      exact band96 x5 x8 64 _ _ p k
    · exact congrFun (View.ld_unit_zero zero1 _ x9) (ix1 k)
  · exact congrFun (View.ld_unit_zero zero1 _ x11) (ix1 q)

end Cert.KernelIdeal.BlockRows

end
-- ==== Proof.Region1Value.lean ====
/-
  The second kernel's output array after its run, at whatever contents the region is entered with.

  As for the first kernel: point t of the 20 works on nodes 5000 t … 5000 t + 4999, every feature window's
  block at t is those rows of its array and every weight window's block is the whole weight array, so what
  point t writes back is those rows of the second layer applied to the whole input arrays, and the 20 blocks
  tile the 100000 rows.
-/
import proofs.«120313_j78408922956333_1_alg».proof.Proof.BlockRows2
import proofs.«120313_j78408922956333_1_alg».proof.Proof.NodeSpec

set_option maxRecDepth 16384

noncomputable section

namespace Cert.KernelIdeal.Region1

open Cert.KernelIdeal Cert.KernelIdeal.Gen Cert.KernelIdeal.BlockRows Cert.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: a feature window's block index at point t is (t, 0), a weight
    window's is zero. -/
theorem idx1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = t.val
    ∧ win1_4.index t (1 : Fin 2) = 0
    ∧ win1_5.index t (0 : Fin 2) = t.val
    ∧ win1_5.index t (1 : Fin 2) = 0
    ∧ win1_6.index t (0 : Fin 2) = 0
    ∧ win1_6.index t (1 : Fin 2) = 0
    ∧ win1_7.index t (0 : Fin 1) = 0
    ∧ win1_8.index t (0 : Fin 2) = 0
    ∧ win1_8.index t (1 : Fin 2) = 0
    ∧ win1_9.index t (0 : Fin 1) = 0
    ∧ win1_10.index t (0 : Fin 2) = 0
    ∧ win1_10.index t (1 : Fin 2) = 0
    ∧ win1_11.index t (0 : Fin 1) = 0
    ∧ win1_12.index t (0 : Fin 2) = t.val
    ∧ win1_12.index t (1 : Fin 2) = 0 :=
  (by decide +kernel : ∀ t : Fin grid1.N, _)

theorem t_lt (t : Fin cfg1.N) : t.val < 20 := lt_of_lt_of_eq t.isLt N_1

/-! ## The input blocks at a point, read off their arrays -/

theorem blk0 (c : Dev nD) (t : Fin cfg1.N) (p : Fin 5000) (k : Fin 32) :
    iblk1 V c 0 t (ix2 p k) = (V c main_v75 : Mat 100000 32) (ix2 ⟨5000 * t.val + p.val, by have := t_lt t; omega⟩ k) := by
  show V c main_v75 (((cfg1.win 0).blk t).view.emb (ix2 p k)) = _
  refine congrArg (V c main_v75) (funext fun a => Fin.ext ?_)
  obtain ⟨e0, e1, -⟩ := idx1 t
  match a with
  | ⟨0, _⟩ => show win1_0.index t (0 : Fin 2) * 5000 + 1 * p.val = 5000 * t.val + p.val; rw [e0]; omega
  | ⟨1, _⟩ => show win1_0.index t (1 : Fin 2) * 32 + 1 * k.val = k.val; rw [e1]; omega

theorem blk1 (c : Dev nD) (t : Fin cfg1.N) (p : Fin 5000) (k : Fin 32) :
    iblk1 V c 1 t (ix2 p k) = (V c main_v100 : Mat 100000 32) (ix2 ⟨5000 * t.val + p.val, by have := t_lt t; omega⟩ k) := by
  show V c main_v100 (((cfg1.win 1).blk t).view.emb (ix2 p k)) = _
  refine congrArg (V c main_v100) (funext fun a => Fin.ext ?_)
  obtain ⟨-, -, e0, e1, -⟩ := idx1 t
  match a with
  | ⟨0, _⟩ => show win1_1.index t (0 : Fin 2) * 5000 + 1 * p.val = 5000 * t.val + p.val; rw [e0]; omega
  | ⟨1, _⟩ => show win1_1.index t (1 : Fin 2) * 32 + 1 * k.val = k.val; rw [e1]; omega

theorem blk2 (c : Dev nD) (t : Fin cfg1.N) (p : Fin 5000) (k : Fin 32) :
    iblk1 V c 2 t (ix2 p k) = (V c main_v125 : Mat 100000 32) (ix2 ⟨5000 * t.val + p.val, by have := t_lt t; omega⟩ k) := by
  show V c main_v125 (((cfg1.win 2).blk t).view.emb (ix2 p k)) = _
  refine congrArg (V c main_v125) (funext fun a => Fin.ext ?_)
  obtain ⟨-, -, -, -, e0, e1, -⟩ := idx1 t
  match a with
  | ⟨0, _⟩ => show win1_2.index t (0 : Fin 2) * 5000 + 1 * p.val = 5000 * t.val + p.val; rw [e0]; omega
  | ⟨1, _⟩ => show win1_2.index t (1 : Fin 2) * 32 + 1 * k.val = k.val; rw [e1]; omega

theorem blk3 (c : Dev nD) (t : Fin cfg1.N) (p : Fin 5000) (k : Fin 32) :
    iblk1 V c 3 t (ix2 p k) = (V c main_v150 : Mat 100000 32) (ix2 ⟨5000 * t.val + p.val, by have := t_lt t; omega⟩ k) := by
  show V c main_v150 (((cfg1.win 3).blk t).view.emb (ix2 p k)) = _
  refine congrArg (V c main_v150) (funext fun a => Fin.ext ?_)
  obtain ⟨-, -, -, -, -, -, e0, e1, -⟩ := idx1 t
  match a with
  | ⟨0, _⟩ => show win1_3.index t (0 : Fin 2) * 5000 + 1 * p.val = 5000 * t.val + p.val; rw [e0]; omega
  | ⟨1, _⟩ => show win1_3.index t (1 : Fin 2) * 32 + 1 * k.val = k.val; rw [e1]; omega

theorem blk4 (c : Dev nD) (t : Fin cfg1.N) (p : Fin 5000) (k : Fin 32) :
    iblk1 V c 4 t (ix2 p k) = (V c main_v50_0 : Mat 100000 32) (ix2 ⟨5000 * t.val + p.val, by have := t_lt t; omega⟩ k) := by
  show V c main_v50_0 (((cfg1.win 4).blk t).view.emb (ix2 p k)) = _
  refine congrArg (V c main_v50_0) (funext fun a => Fin.ext ?_)
  obtain ⟨-, -, -, -, -, -, -, -, e0, e1, -⟩ := idx1 t
  match a with
  | ⟨0, _⟩ => show win1_4.index t (0 : Fin 2) * 5000 + 1 * p.val = 5000 * t.val + p.val; rw [e0]; omega
  | ⟨1, _⟩ => show win1_4.index t (1 : Fin 2) * 32 + 1 * k.val = k.val; rw [e1]; omega

theorem blk5 (c : Dev nD) (t : Fin cfg1.N) (p : Fin 5000) (k : Fin 32) :
    iblk1 V c 5 t (ix2 p k) = (V c main_v50_1 : Mat 100000 32) (ix2 ⟨5000 * t.val + p.val, by have := t_lt t; omega⟩ k) := by
  show V c main_v50_1 (((cfg1.win 5).blk t).view.emb (ix2 p k)) = _
  refine congrArg (V c main_v50_1) (funext fun a => Fin.ext ?_)
  obtain ⟨-, -, -, -, -, -, -, -, -, -, e0, e1, -⟩ := idx1 t
  match a with
  | ⟨0, _⟩ => show win1_5.index t (0 : Fin 2) * 5000 + 1 * p.val = 5000 * t.val + p.val; rw [e0]; omega
  | ⟨1, _⟩ => show win1_5.index t (1 : Fin 2) * 32 + 1 * k.val = k.val; rw [e1]; omega

theorem blk6 (c : Dev nD) (t : Fin cfg1.N) : (iblk1 V c 6 t : Mat 96 32) = V c main_arg9 := by
  funext y
  show V c main_arg9 (((cfg1.win 6).blk t).view.emb y) = _
  refine congrArg (V c main_arg9) (funext fun a => Fin.ext ?_)
  obtain ⟨-, -, -, -, -, -, -, -, -, -, -, -, e0, e1, -⟩ := idx1 t
  match a with
  | ⟨0, _⟩ => show win1_6.index t (0 : Fin 2) * 96 + 1 * (y 0).val = (y 0).val; rw [e0]; omega
  | ⟨1, _⟩ => show win1_6.index t (1 : Fin 2) * 32 + 1 * (y 1).val = (y 1).val; rw [e1]; omega

theorem blk7 (c : Dev nD) (t : Fin cfg1.N) : (iblk1 V c 7 t : Vc 32) = V c main_arg10 := by
  funext y
  show V c main_arg10 (((cfg1.win 7).blk t).view.emb y) = _
  refine congrArg (V c main_arg10) (funext fun a => Fin.ext ?_)
  obtain ⟨-, -, -, -, -, -, -, -, -, -, -, -, -, -, e0, -⟩ := idx1 t
  match a with
  | ⟨0, _⟩ => show win1_7.index t (0 : Fin 1) * 32 + 1 * (y 0).val = (y 0).val; rw [e0]; omega

theorem blk8 (c : Dev nD) (t : Fin cfg1.N) : (iblk1 V c 8 t : Mat 96 32) = V c main_arg11 := by
  funext y
  show V c main_arg11 (((cfg1.win 8).blk t).view.emb y) = _
  refine congrArg (V c main_arg11) (funext fun a => Fin.ext ?_)
  obtain ⟨-, -, -, -, -, -, -, -, -, -, -, -, -, -, -, e0, e1, -⟩ := idx1 t
  match a with
  | ⟨0, _⟩ => show win1_8.index t (0 : Fin 2) * 96 + 1 * (y 0).val = (y 0).val; rw [e0]; omega
  | ⟨1, _⟩ => show win1_8.index t (1 : Fin 2) * 32 + 1 * (y 1).val = (y 1).val; rw [e1]; omega

theorem blk9 (c : Dev nD) (t : Fin cfg1.N) : (iblk1 V c 9 t : Vc 32) = V c main_arg12 := by
  funext y
  show V c main_arg12 (((cfg1.win 9).blk t).view.emb y) = _
  refine congrArg (V c main_arg12) (funext fun a => Fin.ext ?_)
  obtain ⟨-, -, -, -, -, -, -, -, -, -, -, -, -, -, -, -, -, e0, -⟩ := idx1 t
  match a with
  | ⟨0, _⟩ => show win1_9.index t (0 : Fin 1) * 32 + 1 * (y 0).val = (y 0).val; rw [e0]; omega

theorem blk10 (c : Dev nD) (t : Fin cfg1.N) : (iblk1 V c 10 t : Mat 64 64) = V c main_arg13 := by
  funext y
  show V c main_arg13 (((cfg1.win 10).blk t).view.emb y) = _
  refine congrArg (V c main_arg13) (funext fun a => Fin.ext ?_)
  obtain ⟨-, -, -, -, -, -, -, -, -, -, -, -, -, -, -, -, -, -, e0, e1, -⟩ := idx1 t
  match a with
  | ⟨0, _⟩ => show win1_10.index t (0 : Fin 2) * 64 + 1 * (y 0).val = (y 0).val; rw [e0]; omega
  | ⟨1, _⟩ => show win1_10.index t (1 : Fin 2) * 64 + 1 * (y 1).val = (y 1).val; rw [e1]; omega

theorem blk11 (c : Dev nD) (t : Fin cfg1.N) : (iblk1 V c 11 t : Vc 64) = V c main_arg14 := by
  funext y
  show V c main_arg14 (((cfg1.win 11).blk t).view.emb y) = _
  refine congrArg (V c main_arg14) (funext fun a => Fin.ext ?_)
  obtain ⟨-, -, -, -, -, -, -, -, -, -, -, -, -, -, -, -, -, -, -, -, e0, -⟩ := idx1 t
  match a with
  | ⟨0, _⟩ => show win1_11.index t (0 : Fin 1) * 64 + 1 * (y 0).val = (y 0).val; rw [e0]; omega

/-! ## What a point writes back -/

/-- Point t's write-back to the output window: rows 5000 t … of the second layer of the whole arrays. -/
theorem flushed12_eq (c : Dev nD) (t : Fin cfg1.N) :
    (dat1 V c).flushed 12 t = ((cfg1.win 12).blk t).view.read (Elt Ideal)
      (conv2 (V c main_v75 : Mat 100000 32) (V c main_v100 : Mat 100000 32) (V c main_v125 : Mat 100000 32) (V c main_v150 : Mat 100000 32)
        (V c main_v50_0 : Mat 100000 32) (V c main_v50_1 : Mat 100000 32) (V c main_arg9 : Mat 96 32) (V c main_arg10 : Vc 32)
        (V c main_arg11 : Mat 96 32) (V c main_arg12 : Vc 32) (V c main_arg13 : Mat 64 64) (V c main_arg14 : Vc 64)) := by
  show (cfg1.win 12).cut (grid1.coords t) ((dat1 V c).after 12 t) = _
  rw [after1_12]
  funext j
  obtain ⟨p, q, rfl⟩ : ∃ (p : Fin 5000) (q : Fin 64), j = ix2 p q := ⟨j 0, j 1, eq_ix2 j⟩
  have ht := t_lt t
  show out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (ix2 p q)
      = (conv2 (V c main_v75 : Mat 100000 32) (V c main_v100 : Mat 100000 32) (V c main_v125 : Mat 100000 32) (V c main_v150 : Mat 100000 32)
        (V c main_v50_0 : Mat 100000 32) (V c main_v50_1 : Mat 100000 32) (V c main_arg9 : Mat 96 32) (V c main_arg10 : Vc 32)
        (V c main_arg11 : Mat 96 32) (V c main_arg12 : Vc 32) (V c main_arg13 : Mat 64 64) (V c main_arg14 : Vc 64))
          (((cfg1.win 12).blk t).view.emb (ix2 p q))
  have hemb : ((cfg1.win 12).blk t).view.emb (ix2 p q) = (ix2 ⟨5000 * t.val + p.val, by omega⟩ q : (⟨2, ![100000, 64]⟩ : Shape).Idx) := by
    obtain ⟨-, -, -, -, -, -, -, -, -, -, -, -, -, -, -, -, -, -, -, -, -, e0, e1⟩ := idx1 t
    funext a; apply Fin.ext
    match a with
    | ⟨0, _⟩ => show win1_12.index t (0 : Fin 2) * 5000 + 1 * p.val = 5000 * t.val + p.val; rw [e0]; omega
    | ⟨1, _⟩ => show win1_12.index t (1 : Fin 2) * 64 + 1 * q.val = q.val; rw [e1]; omega
  refine (out1_12_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) p q).trans ?_
  refine Eq.trans ?_ (congrArg (conv2 (V c main_v75 : Mat 100000 32) (V c main_v100 : Mat 100000 32) (V c main_v125 : Mat 100000 32) (V c main_v150 : Mat 100000 32)
        (V c main_v50_0 : Mat 100000 32) (V c main_v50_1 : Mat 100000 32) (V c main_arg9 : Mat 96 32) (V c main_arg10 : Vc 32)
        (V c main_arg11 : Mat 96 32) (V c main_arg12 : Vc 32) (V c main_arg13 : Mat 64 64) (V c main_arg14 : Vc 64)) hemb.symm)
  exact conv2row_block (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _ _ _ _ _ _ _ _ _ _ _ _ ⟨5000 * t.val + p.val, by omega⟩ p q
    (blk0 V c t p) (blk1 V c t p) (blk2 V c t p) (blk3 V c t p) (blk4 V c t p) (blk5 V c t p)
    (blk6 V c t) (blk7 V c t) (blk8 V c t) (blk9 V c t) (blk10 V c t) (blk11 V c t)

/-! ## The blocks tile the rows -/

theorem mem_blk12 (t : Fin cfg1.N) (i : S100000x64.Idx) :
    i ∈ ((cfg1.win 12).blk t).view.set ↔ ∀ a : Fin 2, win1_12.index t a * S5000x64.size a ≤ (i a).val
      ∧ (i a).val < win1_12.index t a * S5000x64.size a + S5000x64.size a := by
  show i ∈ ((View.whole main_v151).slice (win1_12.rect t)).set ↔ _
  rw [View.set_slice_whole, Rect.mem_set_unit]
  exact Iff.rfl

/-- Row r belongs to the block of point r / 5000. -/
theorem cover12 (i : S100000x64.Idx) :
    ∃ t : Fin cfg1.N, (cfg1.win 12).flush t = true ∧ i ∈ ((cfg1.win 12).blk t).view.set := by
  have hi0 : (i 0).val < 100000 := (i 0).isLt
  have hi1 : (i 1).val < 64 := (i 1).isLt
  have hN : cfg1.N = 20 := N_1
  have hlt : (i 0).val / 5000 < cfg1.N := by rw [hN]; omega
  refine ⟨⟨(i 0).val / 5000, hlt⟩, flush1_12 _, ?_⟩
  rw [mem_blk12]
  obtain ⟨-, -, -, -, -, -, -, -, -, -, -, -, -, -, -, -, -, -, -, -, -, e0, e1⟩ := idx1 ⟨(i 0).val / 5000, hlt⟩
  intro a
  match a with
  | ⟨0, _⟩ =>
    show win1_12.index ⟨(i 0).val / 5000, hlt⟩ (0 : Fin 2) * 5000 ≤ (i 0).val
      ∧ (i 0).val < win1_12.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_12.index ⟨(i 0).val / 5000, hlt⟩ (1 : Fin 2) * 64 ≤ (i 1).val
      ∧ (i 1).val < win1_12.index ⟨(i 0).val / 5000, hlt⟩ (1 : Fin 2) * 64 + 64
    rw [e1]; omega

/-! ## The output array after the run -/

theorem final12 (c : Dev nD) :
    (dat1 V c).arrAt 12 cfg1.N
      = (conv2 (V c main_v75 : Mat 100000 32) (V c main_v100 : Mat 100000 32) (V c main_v125 : Mat 100000 32) (V c main_v150 : Mat 100000 32)
        (V c main_v50_0 : Mat 100000 32) (V c main_v50_1 : Mat 100000 32) (V c main_arg9 : Mat 96 32) (V c main_arg10 : Vc 32)
        (V c main_arg11 : Mat 96 32) (V c main_arg12 : Vc 32) (V c main_arg13 : Mat 64 64) (V c main_arg14 : Vc 64)) :=
  (dat1 V c).arrAt_eq_of_cover 12 _ (fun t _ => flushed12_eq V c t) cover12

end Cert.KernelIdeal.Region1

end
-- ==== Proof.NetSpec.lean ====
/-
  The whole network as one function of its fifteen argument arrays, at exact values.

  The node features are aggregated over the positive and over the negative edges; each sign's first layer
  turns (its aggregate, the features) into a 32-wide array; those two arrays are aggregated over both edge
  sets (four aggregates); the second layer and the output layer turn the four aggregates and the two arrays
  into the 64-wide result.
-/
import proofs.«120313_j78408922956333_1_alg».proof.Proof.Agg
import proofs.«120313_j78408922956333_1_alg».proof.Proof.NodeSpec

noncomputable section

namespace Cert.Net

open Cert.KernelIdeal Cert.KernelIdeal.Agg Cert.Rows Idealize.ShloMosaic

/-- The positive sign's first-layer array. -/
def hidP (e0 : (⟨S2x1000000, .i32⟩ : BufTy).Contents (Elt Ideal)) (w0 : (⟨S1000000, .f32⟩ : BufTy).Contents (Elt Ideal)) (x : Mat 100000 64) (w1p : Mat 128 32)
    (b1p : Vc 32) : Mat 100000 32 :=
  conv1 (wmean64pos (F := Ideal) e0 w0 x) x w1p b1p

/-- The negative sign's first-layer array. -/
def hidN (e1 : (⟨S2x500000, .i32⟩ : BufTy).Contents (Elt Ideal)) (w1 : (⟨S500000, .f32⟩ : BufTy).Contents (Elt Ideal)) (x : Mat 100000 64) (w1n : Mat 128 32)
    (b1n : Vc 32) : Mat 100000 32 :=
  conv1 (wmean64neg (F := Ideal) e1 w1 x) x w1n b1n

/-- The result: the second layer and the output layer over the four aggregates of the two first-layer arrays. -/
def net (e0 : (⟨S2x1000000, .i32⟩ : BufTy).Contents (Elt Ideal)) (e1 : (⟨S2x500000, .i32⟩ : BufTy).Contents (Elt Ideal)) (w0 : (⟨S1000000, .f32⟩ : BufTy).Contents (Elt Ideal))
    (w1 : (⟨S500000, .f32⟩ : BufTy).Contents (Elt Ideal)) (x : Mat 100000 64) (w1p : Mat 128 32) (b1p : Vc 32) (w1n : Mat 128 32) (b1n : Vc 32)
    (w2p : Mat 96 32) (b2p : Vc 32) (w2n : Mat 96 32) (b2n : Vc 32) (wout : Mat 64 64) (bout : Vc 64) : Mat 100000 64 :=
  conv2 (wmean32pos (F := Ideal) e0 w0 (hidP e0 w0 x w1p b1p)) (wmean32neg (F := Ideal) e1 w1 (hidN e1 w1 x w1n b1n))
    (wmean32pos (F := Ideal) e0 w0 (hidN e1 w1 x w1n b1n)) (wmean32neg (F := Ideal) e1 w1 (hidP e0 w0 x w1p b1p))
    (hidP e0 w0 x w1p b1p) (hidN e1 w1 x w1n b1n) w2p b2p w2n b2n wout bout

end Cert.Net

end
-- ==== Proof.KernelValue.lean ====
/-
  The idealized kernel's result array, as the network of its argument arrays.

  The last boundary's contents at the result array are the second kernel's output array; that is the second
  layer of the arrays the second kernel is entered with; those are the four aggregates the second stretch of
  host operations computes from the first kernel's two output arrays, and the weights as launched; the first
  kernel's outputs are the first layer of the two aggregates the first stretch computes from the features as
  launched. Put together: the network (NetSpec) of the launch contents of the fifteen arguments.
-/
import proofs.«120313_j78408922956333_1_alg».proof.Proof.KernelHost
import proofs.«120313_j78408922956333_1_alg».proof.Proof.Region0Value
import proofs.«120313_j78408922956333_1_alg».proof.Proof.Region1Value
import proofs.«120313_j78408922956333_1_alg».proof.Proof.NetSpec

set_option maxRecDepth 16384

noncomputable section

namespace Cert.KernelIdeal.NetValue

open Cert.KernelIdeal Cert.KernelIdeal.Gen Cert.KernelIdeal.Agg Cert.KernelIdeal.HostStretch Cert.Rows Cert.Net
open Idealize.ShloMosaic Idealize.ShloMosaic.TcCoe Idealize.SL.Sem

/-- Equal inputs, equal second-layer outputs. -/
theorem conv2_congr {A1 A2 A3 A4 ZP ZN A1' A2' A3' A4' ZP' ZN' : Mat 100000 32} {w2p w2p' w2n w2n' : Mat 96 32}
    {b2p b2p' b2n b2n' : Vc 32} {wout wout' : Mat 64 64} {bout bout' : Vc 64}
    (h1 : A1 = A1') (h2 : A2 = A2') (h3 : A3 = A3') (h4 : A4 = A4') (h5 : ZP = ZP') (h6 : ZN = ZN')
    (h7 : w2p = w2p') (h8 : b2p = b2p') (h9 : w2n = w2n') (h10 : b2n = b2n') (h11 : wout = wout') (h12 : bout = bout') :
    conv2 A1 A2 A3 A4 ZP ZN w2p b2p w2n b2n wout bout = conv2 A1' A2' A3' A4' ZP' ZN' w2p' b2p' w2n' b2n' wout' bout' := by
  subst h1 h2 h3 h4 h5 h6 h7 h8 h9 h10 h11 h12; rfl

variable (m : (ℓ : Loc nD τ sig) → Buf (Elt Ideal) ℓ) (ρ : Dev nD → PrngReg)

/-- The result array at the last boundary is the network of the launch contents. -/
theorem result_eq (c : Dev nD) :
    W4 (F := Ideal) m ρ c (Proc.devRef .tc main_v151) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have v1a0 : V1 m ρ c main_arg0 = m ((c : Thread nD τ).loc main_arg0) := (keep0_arg0 (W0 m ρ c)).trans rfl
  have w2a0 : W2 m ρ c (Proc.devRef .tc main_arg0) = m ((c : Thread nD τ).loc main_arg0) :=
    (W2_of_ne m ρ c main_arg0 (by decide)).trans v1a0
  have v3a0 : V3 m ρ c main_arg0 = m ((c : Thread nD τ).loc main_arg0) := (keep1_arg0 (W2 m ρ c)).trans w2a0
  have v1a1 : V1 m ρ c main_arg1 = m ((c : Thread nD τ).loc main_arg1) := (keep0_arg1 (W0 m ρ c)).trans rfl
  have w2a1 : W2 m ρ c (Proc.devRef .tc main_arg1) = m ((c : Thread nD τ).loc main_arg1) :=
    (W2_of_ne m ρ c main_arg1 (by decide)).trans v1a1
  have v3a1 : V3 m ρ c main_arg1 = m ((c : Thread nD τ).loc main_arg1) := (keep1_arg1 (W2 m ρ c)).trans w2a1
  have v1a2 : V1 m ρ c main_arg2 = m ((c : Thread nD τ).loc main_arg2) := (keep0_arg2 (W0 m ρ c)).trans rfl
  have w2a2 : W2 m ρ c (Proc.devRef .tc main_arg2) = m ((c : Thread nD τ).loc main_arg2) :=
    (W2_of_ne m ρ c main_arg2 (by decide)).trans v1a2
  have v3a2 : V3 m ρ c main_arg2 = m ((c : Thread nD τ).loc main_arg2) := (keep1_arg2 (W2 m ρ c)).trans w2a2
  have v1a3 : V1 m ρ c main_arg3 = m ((c : Thread nD τ).loc main_arg3) := (keep0_arg3 (W0 m ρ c)).trans rfl
  have w2a3 : W2 m ρ c (Proc.devRef .tc main_arg3) = m ((c : Thread nD τ).loc main_arg3) :=
    (W2_of_ne m ρ c main_arg3 (by decide)).trans v1a3
  have v3a3 : V3 m ρ c main_arg3 = m ((c : Thread nD τ).loc main_arg3) := (keep1_arg3 (W2 m ρ c)).trans w2a3
  have v1a4 : V1 m ρ c main_arg4 = m ((c : Thread nD τ).loc main_arg4) := (keep0_arg4 (W0 m ρ c)).trans rfl
  have v1a5 : V1 m ρ c main_arg5 = m ((c : Thread nD τ).loc main_arg5) := (keep0_arg5 (W0 m ρ c)).trans rfl
  have v1a6 : V1 m ρ c main_arg6 = m ((c : Thread nD τ).loc main_arg6) := (keep0_arg6 (W0 m ρ c)).trans rfl
  have v1a7 : V1 m ρ c main_arg7 = m ((c : Thread nD τ).loc main_arg7) := (keep0_arg7 (W0 m ρ c)).trans rfl
  have v1a8 : V1 m ρ c main_arg8 = m ((c : Thread nD τ).loc main_arg8) := (keep0_arg8 (W0 m ρ c)).trans rfl
  have v1a9 : V1 m ρ c main_arg9 = m ((c : Thread nD τ).loc main_arg9) := (keep0_arg9 (W0 m ρ c)).trans rfl
  have w2a9 : W2 m ρ c (Proc.devRef .tc main_arg9) = m ((c : Thread nD τ).loc main_arg9) :=
    (W2_of_ne m ρ c main_arg9 (by decide)).trans v1a9
  have v3a9 : V3 m ρ c main_arg9 = m ((c : Thread nD τ).loc main_arg9) := (keep1_arg9 (W2 m ρ c)).trans w2a9
  have v1a10 : V1 m ρ c main_arg10 = m ((c : Thread nD τ).loc main_arg10) := (keep0_arg10 (W0 m ρ c)).trans rfl
  have w2a10 : W2 m ρ c (Proc.devRef .tc main_arg10) = m ((c : Thread nD τ).loc main_arg10) :=
    (W2_of_ne m ρ c main_arg10 (by decide)).trans v1a10
  have v3a10 : V3 m ρ c main_arg10 = m ((c : Thread nD τ).loc main_arg10) := (keep1_arg10 (W2 m ρ c)).trans w2a10
  have v1a11 : V1 m ρ c main_arg11 = m ((c : Thread nD τ).loc main_arg11) := (keep0_arg11 (W0 m ρ c)).trans rfl
  have w2a11 : W2 m ρ c (Proc.devRef .tc main_arg11) = m ((c : Thread nD τ).loc main_arg11) :=
    (W2_of_ne m ρ c main_arg11 (by decide)).trans v1a11
  have v3a11 : V3 m ρ c main_arg11 = m ((c : Thread nD τ).loc main_arg11) := (keep1_arg11 (W2 m ρ c)).trans w2a11
  have v1a12 : V1 m ρ c main_arg12 = m ((c : Thread nD τ).loc main_arg12) := (keep0_arg12 (W0 m ρ c)).trans rfl
  have w2a12 : W2 m ρ c (Proc.devRef .tc main_arg12) = m ((c : Thread nD τ).loc main_arg12) :=
    (W2_of_ne m ρ c main_arg12 (by decide)).trans v1a12
  have v3a12 : V3 m ρ c main_arg12 = m ((c : Thread nD τ).loc main_arg12) := (keep1_arg12 (W2 m ρ c)).trans w2a12
  have v1a13 : V1 m ρ c main_arg13 = m ((c : Thread nD τ).loc main_arg13) := (keep0_arg13 (W0 m ρ c)).trans rfl
  have w2a13 : W2 m ρ c (Proc.devRef .tc main_arg13) = m ((c : Thread nD τ).loc main_arg13) :=
    (W2_of_ne m ρ c main_arg13 (by decide)).trans v1a13
  have v3a13 : V3 m ρ c main_arg13 = m ((c : Thread nD τ).loc main_arg13) := (keep1_arg13 (W2 m ρ c)).trans w2a13
  have v1a14 : V1 m ρ c main_arg14 = m ((c : Thread nD τ).loc main_arg14) := (keep0_arg14 (W0 m ρ c)).trans rfl
  have w2a14 : W2 m ρ c (Proc.devRef .tc main_arg14) = m ((c : Thread nD τ).loc main_arg14) :=
    (W2_of_ne m ρ c main_arg14 (by decide)).trans v1a14
  have v3a14 : V3 m ρ c main_arg14 = m ((c : Thread nD τ).loc main_arg14) := (keep1_arg14 (W2 m ρ c)).trans w2a14
  -- the first kernel's two aggregated inputs
  have e24 : V1 m ρ c main_v24 = wmean64pos (F := Ideal) (m ((c : Thread nD τ).loc main_arg0)) (m ((c : Thread nD τ).loc main_arg2)) (m ((c : Thread nD τ).loc main_arg4)) := (stretch0_v24 (W0 m ρ c)).trans rfl
  have e49 : V1 m ρ c main_v49 = wmean64neg (F := Ideal) (m ((c : Thread nD τ).loc main_arg1)) (m ((c : Thread nD τ).loc main_arg3)) (m ((c : Thread nD τ).loc main_arg4)) := (stretch0_v49 (W0 m ρ c)).trans rfl
  -- the first kernel's two output arrays
  have zp : W2 m ρ c (Proc.devRef .tc main_v50_0) = hidP (m ((c : Thread nD τ).loc main_arg0)) (m ((c : Thread nD τ).loc main_arg2)) (m ((c : Thread nD τ).loc main_arg4)) (m ((c : Thread nD τ).loc main_arg5)) (m ((c : Thread nD τ).loc main_arg6)) := by
    refine (W2_arr m ρ c 7).trans ((Region0.final7 (V1 m ρ) c).trans ?_)
    rw [e24, v1a4, v1a5, v1a6]; rfl
  have zn : W2 m ρ c (Proc.devRef .tc main_v50_1) = hidN (m ((c : Thread nD τ).loc main_arg1)) (m ((c : Thread nD τ).loc main_arg3)) (m ((c : Thread nD τ).loc main_arg4)) (m ((c : Thread nD τ).loc main_arg7)) (m ((c : Thread nD τ).loc main_arg8)) := by
    refine (W2_arr m ρ c 8).trans ((Region0.final8 (V1 m ρ) c).trans ?_)
    rw [e49, v1a4, v1a7, v1a8]; rfl
  have v3zp : V3 m ρ c main_v50_0 = hidP (m ((c : Thread nD τ).loc main_arg0)) (m ((c : Thread nD τ).loc main_arg2)) (m ((c : Thread nD τ).loc main_arg4)) (m ((c : Thread nD τ).loc main_arg5)) (m ((c : Thread nD τ).loc main_arg6)) := (keep1_v50_0 (W2 m ρ c)).trans zp
  have v3zn : V3 m ρ c main_v50_1 = hidN (m ((c : Thread nD τ).loc main_arg1)) (m ((c : Thread nD τ).loc main_arg3)) (m ((c : Thread nD τ).loc main_arg4)) (m ((c : Thread nD τ).loc main_arg7)) (m ((c : Thread nD τ).loc main_arg8)) := (keep1_v50_1 (W2 m ρ c)).trans zn
  -- the second kernel's four aggregated inputs
  have e75 : V3 m ρ c main_v75 = wmean32pos (F := Ideal) (m ((c : Thread nD τ).loc main_arg0)) (m ((c : Thread nD τ).loc main_arg2)) (hidP (m ((c : Thread nD τ).loc main_arg0)) (m ((c : Thread nD τ).loc main_arg2)) (m ((c : Thread nD τ).loc main_arg4)) (m ((c : Thread nD τ).loc main_arg5)) (m ((c : Thread nD τ).loc main_arg6))) := by
    refine (stretch1_v75 (W2 m ρ c)).trans ?_; rw [w2a0, w2a2, zp]
  have e100 : V3 m ρ c main_v100 = wmean32neg (F := Ideal) (m ((c : Thread nD τ).loc main_arg1)) (m ((c : Thread nD τ).loc main_arg3)) (hidN (m ((c : Thread nD τ).loc main_arg1)) (m ((c : Thread nD τ).loc main_arg3)) (m ((c : Thread nD τ).loc main_arg4)) (m ((c : Thread nD τ).loc main_arg7)) (m ((c : Thread nD τ).loc main_arg8))) := by
    refine (stretch1_v100 (W2 m ρ c)).trans ?_; rw [w2a1, w2a3, zn]
  have e125 : V3 m ρ c main_v125 = wmean32pos (F := Ideal) (m ((c : Thread nD τ).loc main_arg0)) (m ((c : Thread nD τ).loc main_arg2)) (hidN (m ((c : Thread nD τ).loc main_arg1)) (m ((c : Thread nD τ).loc main_arg3)) (m ((c : Thread nD τ).loc main_arg4)) (m ((c : Thread nD τ).loc main_arg7)) (m ((c : Thread nD τ).loc main_arg8))) := by
    refine (stretch1_v125 (W2 m ρ c)).trans ?_; rw [w2a0, w2a2, zn]
  have e150 : V3 m ρ c main_v150 = wmean32neg (F := Ideal) (m ((c : Thread nD τ).loc main_arg1)) (m ((c : Thread nD τ).loc main_arg3)) (hidP (m ((c : Thread nD τ).loc main_arg0)) (m ((c : Thread nD τ).loc main_arg2)) (m ((c : Thread nD τ).loc main_arg4)) (m ((c : Thread nD τ).loc main_arg5)) (m ((c : Thread nD τ).loc main_arg6))) := by
    refine (stretch1_v150 (W2 m ρ c)).trans ?_; rw [w2a1, w2a3, zp]
  -- the second kernel's output array
  refine (W4_arr m ρ c 12).trans ((Region1.final12 (V3 m ρ) c).trans ?_)
  exact conv2_congr e75 e100 e125 e150 v3zp v3zn v3a9 v3a10 v3a11 v3a12 v3a13 v3a14

end Cert.KernelIdeal.NetValue

end
-- ==== Proof.LibSumSplit.lean ====
/-
  A finite sum over the first n naturals, cut into consecutive stretches.

  If a + b = n, the sum of g over Fin n is the sum over the first a positions plus the sum over the next b
  positions; with three stretches a + b + c = n likewise, grouped to the left. Only commutativity and
  associativity of addition are used, so the statements hold in any additive commutative monoid, the
  extended reals among them: nothing here depends on a summand being finite.
-/
import Mathlib.Algebra.BigOperators.Fin

open scoped BigOperators

namespace Cert.SumSplit

variable {M : Type*} [AddCommMonoid M]

/-- A sum over `Fin n` with `a + b = n` is the sum over the first `a` positions plus the sum over the last `b`. -/
theorem sum_split2 (a b n : ℕ) (h : a + b = n) (g : Fin n → M) :
    ∑ k : Fin n, g k
      = (∑ k : Fin a, g ⟨k.val, by omega⟩) + ∑ k : Fin b, g ⟨a + k.val, by omega⟩ := by
  subst h
  rw [Fin.sum_univ_add]
  rfl

/-- A sum over `Fin n` with `a + b + c = n`: three consecutive stretches, the first two grouped together. -/
theorem sum_split3 (a b c n : ℕ) (h : a + b + c = n) (g : Fin n → M) :
    ∑ k : Fin n, g k
      = ((∑ k : Fin a, g ⟨k.val, by omega⟩) + ∑ k : Fin b, g ⟨a + k.val, by omega⟩)
          + ∑ k : Fin c, g ⟨a + b + k.val, by omega⟩ := by
  rw [sum_split2 (a + b) c n h g, sum_split2 a b (a + b) rfl (fun k => g ⟨k.val, by omega⟩)]

end Cert.SumSplit
-- ==== Proof.RowLaws.lean ====
/-
  The product of a side-by-side row with a whole weight matrix is the split linear layer.

  Let u be a row of length Kw that reads, stretch by stretch, as the rows a, b (and d): positions 0 … K-1 are
  a, positions K … 2K-1 are b (and 2K … 3K-1 are d). Then for every output column c

      (∑ k < Kw, u k · W (k, c)) + bias c  =  the split layer of a, b (, d) at c,

  because the sum over k < Kw is the sum over the first stretch plus the sum over the second (plus the third),
  and within a stretch the summands are the same products. Only addition's commutativity and associativity
  enter: the identity holds at infinite entries too.
-/
import proofs.«120313_j78408922956333_1_alg».proof.Proof.LibSumSplit
import proofs.«120313_j78408922956333_1_alg».proof.Proof.RowSpec

noncomputable section

open scoped BigOperators

namespace Cert.Rows

open Idealize.ShloMosaic Idealize.ShloMosaic.ValueIdx Cert.SumSplit

/-- A band that starts at row 0 is the sum over the first `K` rows themselves. -/
theorem band_zero {K Kw N : ℕ} (a : Fin K → EReal) (W : Mat Kw N) (ho : 0 + K ≤ Kw) (c : Fin N) :
    band a W 0 ho c = ∑ k : Fin K, a k * W (ix2 ⟨k.val, by have := k.isLt; omega⟩ c) := by
  unfold band
  refine Finset.sum_congr rfl fun k _ => ?_
  exact congrArg (fun j : Fin Kw => a k * W (ix2 j c)) (Fin.ext (Nat.zero_add _))

/-- Two stretches: the whole product is the split layer. -/
theorem full_eq_lin2 {K Kw N : ℕ} (h : K + K = Kw) (u : Fin Kw → EReal) (a b : Fin K → EReal) (W : Mat Kw N)
    (bias : Vc N) (c : Fin N)
    (ha : ∀ k : Fin K, u ⟨k.val, by have := k.isLt; omega⟩ = a k)
    (hb : ∀ k : Fin K, u ⟨K + k.val, by have := k.isLt; omega⟩ = b k) :
    (∑ k : Fin Kw, u k * W (ix2 k c)) + bias (ix1 c) = lin2 h a b W bias c := by
  unfold lin2
  rw [sum_split2 K K Kw h (fun k => u k * W (ix2 k c)), band_zero]
  refine congrArg (· + bias (ix1 c)) ?_
  refine congrArg₂ (· + ·) (Finset.sum_congr rfl fun k _ => ?_) (Finset.sum_congr rfl fun k _ => ?_)
  · exact congrArg (· * _) (ha k)
  · exact congrArg (· * _) (hb k)

/-- Three stretches: the whole product is the split layer. -/
theorem full_eq_lin3 {K Kw N : ℕ} (h : K + K + K = Kw) (u : Fin Kw → EReal) (a b d : Fin K → EReal) (W : Mat Kw N)
    (bias : Vc N) (c : Fin N)
    (ha : ∀ k : Fin K, u ⟨k.val, by have := k.isLt; omega⟩ = a k)
    (hb : ∀ k : Fin K, u ⟨K + k.val, by have := k.isLt; omega⟩ = b k)
    (hd : ∀ k : Fin K, u ⟨K + K + k.val, by have := k.isLt; omega⟩ = d k) :
    (∑ k : Fin Kw, u k * W (ix2 k c)) + bias (ix1 c) = lin3 h a b d W bias c := by
  unfold lin3
  rw [sum_split3 K K K Kw h (fun k => u k * W (ix2 k c)), band_zero]
  refine congrArg (· + bias (ix1 c)) ?_
  refine congrArg₂ (· + ·) (congrArg₂ (· + ·) (Finset.sum_congr rfl fun k _ => ?_) (Finset.sum_congr rfl fun k _ => ?_))
    (Finset.sum_congr rfl fun k _ => ?_)
  · exact congrArg (· * _) (ha k)
  · exact congrArg (· * _) (hb k)
  · exact congrArg (· * _) (hd k)

end Cert.Rows

end
-- ==== Proof.LibCatCols.lean ====
/-
  Matrices laid side by side, read at a position.

  The concatenation along the column axis of two (or three) matrices with the same number of rows, read at row
  r and a column that falls in one of the pieces, is that piece at row r and the column counted from the piece's
  first column.
-/
import Idealize.ShloMosaic.Lib.Pipeline.Value
import Idealize.ShloMosaic.Lib.ValueIdx

noncomputable section

namespace Cert.CatCols

open Idealize.ShloMosaic Idealize.ShloMosaic.ValueIdx

variable {α : Type}

/-- Two pieces, a column of the first. -/
theorem cat2_left {R n₁ n₂ n : ℕ} (A : (⟨2, ![R, n₁]⟩ : Shape).Idx → α) (B : (⟨2, ![R, n₂]⟩ : Shape).Idx → α)
    (h : Shape.Concatenates [(⟨2, ![R, n₁]⟩ : Shape), ⟨2, ![R, n₂]⟩] ⟨2, ![R, n]⟩ 1)
    (r : Fin R) (k : Fin n₁) (hk : k.val < n) :
    concatenate (⟨2, ![R, n]⟩ : Shape) 1 [⟨⟨2, ![R, n₁]⟩, A⟩, ⟨⟨2, ![R, n₂]⟩, B⟩] h (ix2 r ⟨k.val, hk⟩) = A (ix2 r k) :=
  concatenate_pair_apply_left 1 A B h (ix2 r ⟨k.val, hk⟩) rfl (ix2 r k) (fun b => by
    match b with
    | ⟨0, _⟩ => rfl
    | ⟨1, _⟩ => rfl)

/-- Two pieces, a column of the second. -/
theorem cat2_right {R n₁ n₂ n : ℕ} (A : (⟨2, ![R, n₁]⟩ : Shape).Idx → α) (B : (⟨2, ![R, n₂]⟩ : Shape).Idx → α)
    (h : Shape.Concatenates [(⟨2, ![R, n₁]⟩ : Shape), ⟨2, ![R, n₂]⟩] ⟨2, ![R, n]⟩ 1)
    (r : Fin R) (k : Fin n₂) (hk : n₁ + k.val < n) :
    concatenate (⟨2, ![R, n]⟩ : Shape) 1 [⟨⟨2, ![R, n₁]⟩, A⟩, ⟨⟨2, ![R, n₂]⟩, B⟩] h (ix2 r ⟨n₁ + k.val, hk⟩) = B (ix2 r k) :=
  concatenate_pair_apply_right 1 A B h (ix2 r ⟨n₁ + k.val, hk⟩) rfl rfl (ix2 r k) (fun b hb => by
    match b, hb with
    | ⟨0, _⟩, _ => rfl
    | ⟨1, _⟩, hb => exact absurd rfl hb) (Nat.add_comm _ _)

/-- Three pieces, a column of the first. -/
theorem cat3_first {R n₁ n₂ n₃ n : ℕ} (A : (⟨2, ![R, n₁]⟩ : Shape).Idx → α) (B : (⟨2, ![R, n₂]⟩ : Shape).Idx → α)
    (C : (⟨2, ![R, n₃]⟩ : Shape).Idx → α)
    (h : Shape.Concatenates [(⟨2, ![R, n₁]⟩ : Shape), ⟨2, ![R, n₂]⟩, ⟨2, ![R, n₃]⟩] ⟨2, ![R, n]⟩ 1)
    (r : Fin R) (k : Fin n₁) (hk : k.val < n) :
    concatenate (⟨2, ![R, n]⟩ : Shape) 1 [⟨⟨2, ![R, n₁]⟩, A⟩, ⟨⟨2, ![R, n₂]⟩, B⟩, ⟨⟨2, ![R, n₃]⟩, C⟩] h (ix2 r ⟨k.val, hk⟩)
      = A (ix2 r k) :=
  concatenate_apply_piece (t := ⟨2, ![R, n]⟩) 1 [⟨⟨2, ![R, n₁]⟩, A⟩, ⟨⟨2, ![R, n₂]⟩, B⟩, ⟨⟨2, ![R, n₃]⟩, C⟩] h (ix2 r ⟨k.val, hk⟩) 0 (by simp) ⟨2, ![R, n₁]⟩ A rfl rfl 0 rfl (ix2 r k) (fun b hb => by
    match b, hb with
    | ⟨0, _⟩, _ => rfl
    | ⟨1, _⟩, hb => exact absurd rfl hb) (Nat.zero_add _)

/-- Three pieces, a column of the second. -/
theorem cat3_second {R n₁ n₂ n₃ n : ℕ} (A : (⟨2, ![R, n₁]⟩ : Shape).Idx → α) (B : (⟨2, ![R, n₂]⟩ : Shape).Idx → α)
    (C : (⟨2, ![R, n₃]⟩ : Shape).Idx → α)
    (h : Shape.Concatenates [(⟨2, ![R, n₁]⟩ : Shape), ⟨2, ![R, n₂]⟩, ⟨2, ![R, n₃]⟩] ⟨2, ![R, n]⟩ 1)
    (r : Fin R) (k : Fin n₂) (hk : n₁ + k.val < n) :
    concatenate (⟨2, ![R, n]⟩ : Shape) 1 [⟨⟨2, ![R, n₁]⟩, A⟩, ⟨⟨2, ![R, n₂]⟩, B⟩, ⟨⟨2, ![R, n₃]⟩, C⟩] h (ix2 r ⟨n₁ + k.val, hk⟩)
      = B (ix2 r k) :=
  concatenate_apply_piece (t := ⟨2, ![R, n]⟩) 1 [⟨⟨2, ![R, n₁]⟩, A⟩, ⟨⟨2, ![R, n₂]⟩, B⟩, ⟨⟨2, ![R, n₃]⟩, C⟩] h (ix2 r ⟨n₁ + k.val, hk⟩) 1 (by simp) ⟨2, ![R, n₂]⟩ B rfl rfl n₁ (by simp) (ix2 r k) (fun b hb => by
    match b, hb with
    | ⟨0, _⟩, _ => rfl
    | ⟨1, _⟩, hb => exact absurd rfl hb) rfl

/-- Three pieces, a column of the third. -/
theorem cat3_third {R n₁ n₂ n₃ n : ℕ} (A : (⟨2, ![R, n₁]⟩ : Shape).Idx → α) (B : (⟨2, ![R, n₂]⟩ : Shape).Idx → α)
    (C : (⟨2, ![R, n₃]⟩ : Shape).Idx → α)
    (h : Shape.Concatenates [(⟨2, ![R, n₁]⟩ : Shape), ⟨2, ![R, n₂]⟩, ⟨2, ![R, n₃]⟩] ⟨2, ![R, n]⟩ 1)
    (r : Fin R) (k : Fin n₃) (hk : n₁ + n₂ + k.val < n) :
    concatenate (⟨2, ![R, n]⟩ : Shape) 1 [⟨⟨2, ![R, n₁]⟩, A⟩, ⟨⟨2, ![R, n₂]⟩, B⟩, ⟨⟨2, ![R, n₃]⟩, C⟩] h (ix2 r ⟨n₁ + n₂ + k.val, hk⟩)
      = C (ix2 r k) :=
  concatenate_apply_piece (t := ⟨2, ![R, n]⟩) 1 [⟨⟨2, ![R, n₁]⟩, A⟩, ⟨⟨2, ![R, n₂]⟩, B⟩, ⟨⟨2, ![R, n₃]⟩, C⟩] h (ix2 r ⟨n₁ + n₂ + k.val, hk⟩) 2 (by simp) ⟨2, ![R, n₃]⟩ C rfl rfl (n₁ + n₂) (by simp) (ix2 r k) (fun b hb => by
    match b, hb with
    | ⟨0, _⟩, _ => rfl
    | ⟨1, _⟩, hb => exact absurd rfl hb) rfl

end Cert.CatCols

end
-- ==== Proof.LibHostLayers.lean ====
/-
  A linear layer as host operations write it, read at one position.

  The host lays its input arrays side by side (a concatenation along the columns), multiplies by the whole
  weight matrix (a general dot product with the plain dimension numbers) and adds the bias repeated down the
  rows (a length-n array broadcast to one row, then to all rows). At exact values, entry (r, c) of the result is
  the split linear layer (RowSpec) of row r of each input: the dot product is a sum over the side-by-side row,
  which falls into one stretch per input.

  Also here: the hyperbolic tangent of two arrays laid side by side, cut back to its left or right half, is the
  hyperbolic tangent of that half.
-/
import proofs.«120313_j78408922956333_1_alg».proof.Proof.RowLaws
import proofs.«120313_j78408922956333_1_alg».proof.Proof.LibCatCols
import proofs.«120313_j78408922956333_1_alg».proof.Proof.LibPlainDot
import Idealize.ShloMosaic.Lib.ValueLayout
import Idealize.ShloMosaic.Lib.Pipeline.Value

noncomputable section

open scoped BigOperators

namespace Cert.HostLayers

open Idealize.ShloMosaic Idealize.ShloMosaic.ValueIdx Cert.Rows Cert.CatCols

/-- A length-`n` bias broadcast to one row and then to `m` rows reads `b c` at (r, c). -/
theorem hostBias_apply {m n : ℕ} (b : (⟨1, ![n]⟩ : Shape).Idx → EReal)
    (h₁ : (⟨1, ![n]⟩ : Shape).BroadcastsInDim ⟨2, ![1, n]⟩ ![1])
    (h₂ : (⟨2, ![1, n]⟩ : Shape).BroadcastsInDim ⟨2, ![m, n]⟩ ![0, 1]) (r : Fin m) (c : Fin n) :
    broadcastInDim ⟨2, ![m, n]⟩ ![0, 1] h₂ (broadcastInDim ⟨2, ![1, n]⟩ ![1] h₁ b) (ix2 r c) = b (ix1 c) := by
  refine (broadcastInDim_apply ![0, 1] h₂ _ (ix2 r c) (ix2 (0 : Fin 1) c) fun a => ?_).trans
    (broadcastInDim_apply ![1] h₁ b (ix2 (0 : Fin 1) c) (ix1 c) fun a => ?_)
  · match a with
    | ⟨0, _⟩ => rfl
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

/-- The host's linear layer on two arrays side by side, at (r, c). -/
theorem cat2_linear_apply {R K Kw N : ℕ} (hK : K + K = Kw) (A B : Mat R K) (W : Mat Kw N) (b : Vc N)
    (d : DotDims ⟨2, ![R, Kw]⟩ ⟨2, ![Kw, N]⟩ ⟨2, ![R, N]⟩) (hd : d = DotDims.plain R Kw N)
    (hc : Shape.Concatenates [(⟨2, ![R, K]⟩ : Shape), ⟨2, ![R, K]⟩] ⟨2, ![R, Kw]⟩ 1)
    (h₁ : (⟨1, ![N]⟩ : Shape).BroadcastsInDim ⟨2, ![1, N]⟩ ![1])
    (h₂ : (⟨2, ![1, N]⟩ : Shape).BroadcastsInDim ⟨2, ![R, N]⟩ ![0, 1]) (r : Fin R) (c : Fin N) :
    addf (F := Ideal) (φ := .f32)
        (Host.dotGeneral (F := Ideal) (φ₁ := .f32) (φ₂ := .f32) d none
          (concatenate ⟨2, ![R, Kw]⟩ 1 [⟨⟨2, ![R, K]⟩, A⟩, ⟨⟨2, ![R, K]⟩, B⟩] hc) W)
        (broadcastInDim ⟨2, ![R, N]⟩ ![0, 1] h₂ (broadcastInDim ⟨2, ![1, N]⟩ ![1] h₁ b)) (ix2 r c)
      = lin2 hK (row A r) (row B r) W b c := by
  refine Eq.trans (congrArg₂ (· + ·) (Cert.PlainDot.dotGeneral_apply d hd none .single _ W r c) (hostBias_apply b h₁ h₂ r c)) ?_
  exact full_eq_lin2 hK (fun k => concatenate ⟨2, ![R, Kw]⟩ 1 [⟨⟨2, ![R, K]⟩, A⟩, ⟨⟨2, ![R, K]⟩, B⟩] hc (ix2 r k))
    (row A r) (row B r) W b c (fun k => cat2_left A B hc r k _) (fun k => cat2_right A B hc r k _)

/-- The host's linear layer on three arrays side by side, at (r, c). -/
theorem cat3_linear_apply {R K Kw N : ℕ} (hK : K + K + K = Kw) (A B D : Mat R K) (W : Mat Kw N) (b : Vc N)
    (d : DotDims ⟨2, ![R, Kw]⟩ ⟨2, ![Kw, N]⟩ ⟨2, ![R, N]⟩) (hd : d = DotDims.plain R Kw N)
    (hc : Shape.Concatenates [(⟨2, ![R, K]⟩ : Shape), ⟨2, ![R, K]⟩, ⟨2, ![R, K]⟩] ⟨2, ![R, Kw]⟩ 1)
    (h₁ : (⟨1, ![N]⟩ : Shape).BroadcastsInDim ⟨2, ![1, N]⟩ ![1])
    (h₂ : (⟨2, ![1, N]⟩ : Shape).BroadcastsInDim ⟨2, ![R, N]⟩ ![0, 1]) (r : Fin R) (c : Fin N) :
    addf (F := Ideal) (φ := .f32)
        (Host.dotGeneral (F := Ideal) (φ₁ := .f32) (φ₂ := .f32) d none
          (concatenate ⟨2, ![R, Kw]⟩ 1 [⟨⟨2, ![R, K]⟩, A⟩, ⟨⟨2, ![R, K]⟩, B⟩, ⟨⟨2, ![R, K]⟩, D⟩] hc) W)
        (broadcastInDim ⟨2, ![R, N]⟩ ![0, 1] h₂ (broadcastInDim ⟨2, ![1, N]⟩ ![1] h₁ b)) (ix2 r c)
      = lin3 hK (row A r) (row B r) (row D r) W b c := by
  refine Eq.trans (congrArg₂ (· + ·) (Cert.PlainDot.dotGeneral_apply d hd none .single _ W r c) (hostBias_apply b h₁ h₂ r c)) ?_
  exact full_eq_lin3 hK
    (fun k => concatenate ⟨2, ![R, Kw]⟩ 1 [⟨⟨2, ![R, K]⟩, A⟩, ⟨⟨2, ![R, K]⟩, B⟩, ⟨⟨2, ![R, K]⟩, D⟩] hc (ix2 r k))
    (row A r) (row B r) (row D r) W b c (fun k => cat3_first A B D hc r k _) (fun k => cat3_second A B D hc r k _)
    (fun k => cat3_third A B D hc r k _)

/-- The hyperbolic tangent of two arrays side by side, cut to the left half. -/
theorem tanh_cat2_slice_left {R n : ℕ} (P Q : Mat R n) {n2 : ℕ}
    (hc : Shape.Concatenates [(⟨2, ![R, n]⟩ : Shape), ⟨2, ![R, n]⟩] ⟨2, ![R, n2]⟩ 1)
    (hs : (⟨2, ![R, n2]⟩ : Shape).Slices ![0, 0] ⟨2, ![R, n]⟩) (r : Fin R) (c : Fin n) :
    extractStridedSlice ⟨2, ![R, n]⟩ ![0, 0]
        (Host.tanh (F := Ideal) (φ := .f32) (concatenate ⟨2, ![R, n2]⟩ 1 [⟨⟨2, ![R, n]⟩, P⟩, ⟨⟨2, ![R, n]⟩, Q⟩] hc)) hs (ix2 r c)
      = Ideal.tanh (P (ix2 r c)) := by
  have h0 : 0 + c.val < n2 := Nat.lt_of_lt_of_le (Nat.add_lt_add_left c.isLt 0) (hs.2 1)
  have hlt : c.val < n2 := by omega
  rw [slice2_axis1_apply 0 _ hs r c ⟨c.val, hlt⟩ (Nat.zero_add _).symm]
  exact congrArg Ideal.tanh (cat2_left P Q hc r c hlt)

/-- The same, cut to the right half. -/
theorem tanh_cat2_slice_right {R n : ℕ} (P Q : Mat R n) {n2 : ℕ}
    (hc : Shape.Concatenates [(⟨2, ![R, n]⟩ : Shape), ⟨2, ![R, n]⟩] ⟨2, ![R, n2]⟩ 1)
    (hs : (⟨2, ![R, n2]⟩ : Shape).Slices ![0, n] ⟨2, ![R, n]⟩) (r : Fin R) (c : Fin n) :
    extractStridedSlice ⟨2, ![R, n]⟩ ![0, n]
        (Host.tanh (F := Ideal) (φ := .f32) (concatenate ⟨2, ![R, n2]⟩ 1 [⟨⟨2, ![R, n]⟩, P⟩, ⟨⟨2, ![R, n]⟩, Q⟩] hc)) hs (ix2 r c)
      = Ideal.tanh (Q (ix2 r c)) := by
  have hlt : n + c.val < n2 := Nat.lt_of_lt_of_le (Nat.add_lt_add_left c.isLt n) (hs.2 1)
  rw [slice2_axis1_apply n _ hs r c ⟨n + c.val, hlt⟩ rfl]
  exact congrArg Ideal.tanh (cat2_right P Q hc r c hlt)

/-- The output layer as the host writes it: the hyperbolic tangent of two arrays side by side, through a linear
    layer and another hyperbolic tangent, at (r, c). -/
theorem tanh_cat2_linear_apply {R K Kw N : ℕ} (hK : K + K = Kw) (P Q : Mat R K) (W : Mat Kw N) (b : Vc N)
    (d : DotDims ⟨2, ![R, Kw]⟩ ⟨2, ![Kw, N]⟩ ⟨2, ![R, N]⟩) (hd : d = DotDims.plain R Kw N)
    (hc : Shape.Concatenates [(⟨2, ![R, K]⟩ : Shape), ⟨2, ![R, K]⟩] ⟨2, ![R, Kw]⟩ 1)
    (h₁ : (⟨1, ![N]⟩ : Shape).BroadcastsInDim ⟨2, ![1, N]⟩ ![1])
    (h₂ : (⟨2, ![1, N]⟩ : Shape).BroadcastsInDim ⟨2, ![R, N]⟩ ![0, 1]) (r : Fin R) (c : Fin N) :
    Host.tanh (F := Ideal) (φ := .f32) (addf (F := Ideal) (φ := .f32)
        (Host.dotGeneral (F := Ideal) (φ₁ := .f32) (φ₂ := .f32) d none
          (Host.tanh (F := Ideal) (φ := .f32) (concatenate ⟨2, ![R, Kw]⟩ 1 [⟨⟨2, ![R, K]⟩, P⟩, ⟨⟨2, ![R, K]⟩, Q⟩] hc)) W)
        (broadcastInDim ⟨2, ![R, N]⟩ ![0, 1] h₂ (broadcastInDim ⟨2, ![1, N]⟩ ![1] h₁ b))) (ix2 r c)
      = Ideal.tanh (lin2 hK (fun k => Ideal.tanh (P (ix2 r k))) (fun k => Ideal.tanh (Q (ix2 r k))) W b c) := by
  refine congrArg Ideal.tanh ?_
  refine Eq.trans (congrArg₂ (· + ·) (Cert.PlainDot.dotGeneral_apply d hd none .single _ W r c) (hostBias_apply b h₁ h₂ r c)) ?_
  exact full_eq_lin2 hK
    (fun k => Host.tanh (F := Ideal) (φ := .f32) (concatenate ⟨2, ![R, Kw]⟩ 1 [⟨⟨2, ![R, K]⟩, P⟩, ⟨⟨2, ![R, K]⟩, Q⟩] hc) (ix2 r k))
    _ _ W b c (fun k => congrArg Ideal.tanh (cat2_left P Q hc r k _)) (fun k => congrArg Ideal.tanh (cat2_right P Q hc r k _))

end Cert.HostLayers

end
-- ==== Proof.NetApply.lean ====
/-
  The network and its layers read at one entry.

  Entry (r, c) of a first-layer array, and of the result, written out as the hyperbolic tangent of a split linear
  layer of row r of the arrays that feed it.
-/
import proofs.«120313_j78408922956333_1_alg».proof.Proof.NetSpec

noncomputable section

namespace Cert.Net

open Cert.KernelIdeal Cert.KernelIdeal.Agg Cert.Rows Idealize.ShloMosaic Idealize.ShloMosaic.ValueIdx

theorem hidden2row_apply (a b z : Fin 32 → EReal) (W : Mat 96 32) (bias : Vc 32) (k : Fin 32) :
    hidden2row a b z W bias k = Ideal.tanh (lin3 (K := 32) rfl a b z W bias k) := by
  unfold hidden2row; rfl

theorem hidP_apply (e0 : (⟨S2x1000000, .i32⟩ : BufTy).Contents (Elt Ideal)) (w0 : (⟨S1000000, .f32⟩ : BufTy).Contents (Elt Ideal)) (x : Mat 100000 64) (w1p : Mat 128 32)
    (b1p : Vc 32) (r : Fin 100000) (c : Fin 32) :
    hidP e0 w0 x w1p b1p (ix2 r c)
      = Ideal.tanh (lin2 (K := 64) rfl (row (wmean64pos (F := Ideal) e0 w0 x : Mat 100000 64) r) (row x r) w1p b1p c) := by
  unfold hidP
  rw [conv1_apply]
  unfold conv1row
  rfl

theorem hidN_apply (e1 : (⟨S2x500000, .i32⟩ : BufTy).Contents (Elt Ideal)) (w1 : (⟨S500000, .f32⟩ : BufTy).Contents (Elt Ideal)) (x : Mat 100000 64) (w1n : Mat 128 32)
    (b1n : Vc 32) (r : Fin 100000) (c : Fin 32) :
    hidN e1 w1 x w1n b1n (ix2 r c)
      = Ideal.tanh (lin2 (K := 64) rfl (row (wmean64neg (F := Ideal) e1 w1 x : Mat 100000 64) r) (row x r) w1n b1n c) := by
  unfold hidN
  rw [conv1_apply]
  unfold conv1row
  rfl

theorem net_apply (e0 : (⟨S2x1000000, .i32⟩ : BufTy).Contents (Elt Ideal)) (e1 : (⟨S2x500000, .i32⟩ : BufTy).Contents (Elt Ideal)) (w0 : (⟨S1000000, .f32⟩ : BufTy).Contents (Elt Ideal))
    (w1 : (⟨S500000, .f32⟩ : BufTy).Contents (Elt Ideal)) (x : Mat 100000 64) (w1p : Mat 128 32) (b1p : Vc 32) (w1n : Mat 128 32) (b1n : Vc 32)
    (w2p : Mat 96 32) (b2p : Vc 32) (w2n : Mat 96 32) (b2n : Vc 32) (wout : Mat 64 64) (bout : Vc 64)
    (r : Fin 100000) (c : Fin 64) :
    net e0 e1 w0 w1 x w1p b1p w1n b1n w2p b2p w2n b2n wout bout (ix2 r c)
      = Ideal.tanh (lin2 (K := 32) (Kw := 64) rfl
          (hidden2row (row (wmean32pos (F := Ideal) e0 w0 (hidP e0 w0 x w1p b1p) : Mat 100000 32) r)
            (row (wmean32neg (F := Ideal) e1 w1 (hidN e1 w1 x w1n b1n) : Mat 100000 32) r) (row (hidP e0 w0 x w1p b1p) r) w2p b2p)
          (hidden2row (row (wmean32pos (F := Ideal) e0 w0 (hidN e1 w1 x w1n b1n) : Mat 100000 32) r)
            (row (wmean32neg (F := Ideal) e1 w1 (hidP e0 w0 x w1p b1p) : Mat 100000 32) r) (row (hidN e1 w1 x w1n b1n) r) w2n b2n)
          wout bout c) := by
  unfold net
  rw [conv2_apply]
  unfold conv2row
  rfl

/-- Equal argument arrays, equal results. -/
theorem net_congr {e0 e0' : (⟨S2x1000000, .i32⟩ : BufTy).Contents (Elt Ideal)} {e1 e1' : (⟨S2x500000, .i32⟩ : BufTy).Contents (Elt Ideal)} {w0 w0' : (⟨S1000000, .f32⟩ : BufTy).Contents (Elt Ideal)}
    {w1 w1' : (⟨S500000, .f32⟩ : BufTy).Contents (Elt Ideal)} {x x' : Mat 100000 64} {w1p w1p' : Mat 128 32} {b1p b1p' : Vc 32} {w1n w1n' : Mat 128 32}
    {b1n b1n' : Vc 32} {w2p w2p' : Mat 96 32} {b2p b2p' : Vc 32} {w2n w2n' : Mat 96 32} {b2n b2n' : Vc 32}
    {wout wout' : Mat 64 64} {bout bout' : Vc 64}
    (h0 : e0 = e0') (h1 : e1 = e1') (h2 : w0 = w0') (h3 : w1 = w1') (h4 : x = x') (h5 : w1p = w1p') (h6 : b1p = b1p') (h7 : w1n = w1n') (h8 : b1n = b1n') (h9 : w2p = w2p') (h10 : b2p = b2p') (h11 : w2n = w2n') (h12 : b2n = b2n') (h13 : wout = wout') (h14 : bout = bout') :
    net e0 e1 w0 w1 x w1p b1p w1n b1n w2p b2p w2n b2n wout bout = net e0' e1' w0' w1' x' w1p' b1p' w1n' b1n' w2p' b2p' w2n' b2n' wout' bout' := by
  subst h0 h1 h2 h3 h4 h5 h6 h7 h8 h9 h10 h11 h12 h13 h14; rfl

end Cert.Net

end
-- ==== Proof.RefValue.lean ====
/-
  The idealized reference's result array, as the network of its argument arrays.

  The reference lays each layer's inputs side by side and multiplies by the whole weight matrix; it keeps the
  two signs' first-layer outputs side by side in one 64-wide array, takes its hyperbolic tangent, and cuts it
  back into the two halves. Read one entry at a time, each of these is the split linear layer of the rows
  involved, and the halves are the two first-layer arrays; the aggregations are the same host operations as
  the kernel's. So its result is the same function (NetSpec) of the launch contents.

  The intermediate arrays are named here (each sign's first and second layer before its hyperbolic tangent);
  the run's composed terms are these names written out.
-/
import proofs.«120313_j78408922956333_1_alg».proof.Proof.Gen.ReferenceIdeal.Run
import proofs.«120313_j78408922956333_1_alg».proof.Proof.LibHostLayers
import proofs.«120313_j78408922956333_1_alg».proof.Proof.NetSpec
import proofs.«120313_j78408922956333_1_alg».proof.Proof.NetApply

set_option maxRecDepth 65536

noncomputable section

namespace Cert.ReferenceIdeal.RefNet

open Cert.ReferenceIdeal Cert.ReferenceIdeal.Gen Cert.ReferenceIdeal.Value Cert.Rows Cert.Net Cert.HostLayers
open Idealize.ShloMosaic Idealize.ShloMosaic.TcCoe Idealize.ShloMosaic.ValueIdx Idealize.SL.Sem Idealize.ShloMosaic.StableHlo

variable (V0 : Valuation τ sig (Elt Ideal))

/-! ## The first layer -/

/-- The positive sign's first layer before its hyperbolic tangent, as the reference writes it. -/
def preP : Mat 100000 32 :=
  addf (F := Ideal) (φ := .f32) (Host.dotGeneral (F := Ideal) (φ₁ := .f32) (φ₂ := .f32) dot_S100000x128_S128x32_S100000x32_1_0_0_1_n_n none (concatenate S100000x128 1 [⟨S100000x64, Cert.KernelIdeal.Agg.wmean64pos (F := Ideal) (V0 (Proc.devRef .tc main_arg0)) (V0 (Proc.devRef .tc main_arg2)) (V0 (Proc.devRef .tc main_arg4))⟩, ⟨S100000x64, (V0 (Proc.devRef .tc main_arg4))⟩] concatenates_S100000x64_S100000x64_S100000x128_d1) (V0 (Proc.devRef .tc main_arg5))) (broadcastInDim S100000x32 ![0, 1] bcast_S1x32_S100000x32_0_1 (broadcastInDim S1x32 ![1] bcast_S32_S1x32_1 (V0 (Proc.devRef .tc main_arg6))))

/-- The negative sign's. -/
def preN : Mat 100000 32 :=
  addf (F := Ideal) (φ := .f32) (Host.dotGeneral (F := Ideal) (φ₁ := .f32) (φ₂ := .f32) dot_S100000x128_S128x32_S100000x32_1_0_0_1_n_n none (concatenate S100000x128 1 [⟨S100000x64, Cert.KernelIdeal.Agg.wmean64neg (F := Ideal) (V0 (Proc.devRef .tc main_arg1)) (V0 (Proc.devRef .tc main_arg3)) (V0 (Proc.devRef .tc main_arg4))⟩, ⟨S100000x64, (V0 (Proc.devRef .tc main_arg4))⟩] concatenates_S100000x64_S100000x64_S100000x128_d1) (V0 (Proc.devRef .tc main_arg7))) (broadcastInDim S100000x32 ![0, 1] bcast_S1x32_S100000x32_0_1 (broadcastInDim S1x32 ![1] bcast_S32_S1x32_1 (V0 (Proc.devRef .tc main_arg8))))

/-- The run's 64-wide first-layer array is the hyperbolic tangent of the two signs side by side. -/
theorem first_eq : res_main_v61 V0 = Host.tanh (F := Ideal) (φ := .f32)
    (concatenate S100000x64 1 [⟨S100000x32, preP V0⟩, ⟨S100000x32, preN V0⟩] concatenates_S100000x32_S100000x32_S100000x64_d1) := rfl

theorem preP_apply (r : Fin 100000) (c : Fin 32) :
    preP V0 (ix2 r c) = lin2 (K := 64) rfl (row (Cert.KernelIdeal.Agg.wmean64pos (F := Ideal) (V0 (Proc.devRef .tc main_arg0)) (V0 (Proc.devRef .tc main_arg2)) (V0 (Proc.devRef .tc main_arg4)) : Mat 100000 64) r)
      (row ((V0 (Proc.devRef .tc main_arg4)) : Mat 100000 64) r) (V0 (Proc.devRef .tc main_arg5)) (V0 (Proc.devRef .tc main_arg6)) c :=
  cat2_linear_apply (K := 64) rfl (Cert.KernelIdeal.Agg.wmean64pos (F := Ideal) (V0 (Proc.devRef .tc main_arg0)) (V0 (Proc.devRef .tc main_arg2)) (V0 (Proc.devRef .tc main_arg4))) (V0 (Proc.devRef .tc main_arg4)) (V0 (Proc.devRef .tc main_arg5)) (V0 (Proc.devRef .tc main_arg6))
    dot_S100000x128_S128x32_S100000x32_1_0_0_1_n_n rfl concatenates_S100000x64_S100000x64_S100000x128_d1
    bcast_S32_S1x32_1 bcast_S1x32_S100000x32_0_1 r c

theorem preN_apply (r : Fin 100000) (c : Fin 32) :
    preN V0 (ix2 r c) = lin2 (K := 64) rfl (row (Cert.KernelIdeal.Agg.wmean64neg (F := Ideal) (V0 (Proc.devRef .tc main_arg1)) (V0 (Proc.devRef .tc main_arg3)) (V0 (Proc.devRef .tc main_arg4)) : Mat 100000 64) r)
      (row ((V0 (Proc.devRef .tc main_arg4)) : Mat 100000 64) r) (V0 (Proc.devRef .tc main_arg7)) (V0 (Proc.devRef .tc main_arg8)) c :=
  cat2_linear_apply (K := 64) rfl (Cert.KernelIdeal.Agg.wmean64neg (F := Ideal) (V0 (Proc.devRef .tc main_arg1)) (V0 (Proc.devRef .tc main_arg3)) (V0 (Proc.devRef .tc main_arg4))) (V0 (Proc.devRef .tc main_arg4)) (V0 (Proc.devRef .tc main_arg7)) (V0 (Proc.devRef .tc main_arg8))
    dot_S100000x128_S128x32_S100000x32_1_0_0_1_n_n rfl concatenates_S100000x64_S100000x64_S100000x128_d1
    bcast_S32_S1x32_1 bcast_S1x32_S100000x32_0_1 r c

/-- The left half of the first layer's 64-wide output is the positive sign's first-layer array. -/
theorem first_pos : (res_main_v62 V0 : Mat 100000 32) = (hidP (V0 (Proc.devRef .tc main_arg0)) (V0 (Proc.devRef .tc main_arg2)) (V0 (Proc.devRef .tc main_arg4)) (V0 (Proc.devRef .tc main_arg5)) (V0 (Proc.devRef .tc main_arg6))) := by
  funext i
  obtain ⟨r, c, rfl⟩ : ∃ (r : Fin 100000) (c : Fin 32), i = ix2 r c := ⟨i 0, i 1, eq_ix2 i⟩
  show extractStridedSlice S100000x32 ![0, 0] (res_main_v61 V0) slices_S100000x64_S100000x32_0_0 (ix2 r c) = _
  rw [first_eq]
  refine (tanh_cat2_slice_left (preP V0) (preN V0) concatenates_S100000x32_S100000x32_S100000x64_d1
    slices_S100000x64_S100000x32_0_0 r c).trans ?_
  rw [hidP_apply]
  exact congrArg Ideal.tanh (preP_apply V0 r c)

/-- The right half is the negative sign's. -/
theorem first_neg : (res_main_v63 V0 : Mat 100000 32) = (hidN (V0 (Proc.devRef .tc main_arg1)) (V0 (Proc.devRef .tc main_arg3)) (V0 (Proc.devRef .tc main_arg4)) (V0 (Proc.devRef .tc main_arg7)) (V0 (Proc.devRef .tc main_arg8))) := by
  funext i
  obtain ⟨r, c, rfl⟩ : ∃ (r : Fin 100000) (c : Fin 32), i = ix2 r c := ⟨i 0, i 1, eq_ix2 i⟩
  show extractStridedSlice S100000x32 ![0, 32] (res_main_v61 V0) slices_S100000x64_S100000x32_0_32 (ix2 r c) = _
  rw [first_eq]
  refine (tanh_cat2_slice_right (preP V0) (preN V0) concatenates_S100000x32_S100000x32_S100000x64_d1
    slices_S100000x64_S100000x32_0_32 r c).trans ?_
  rw [hidN_apply]
  exact congrArg Ideal.tanh (preN_apply V0 r c)

/-! ## The second layer -/

/-- The positive sign's second layer before its hyperbolic tangent, as the reference writes it. -/
def opP : Mat 100000 32 :=
  addf (F := Ideal) (φ := .f32) (Host.dotGeneral (F := Ideal) (φ₁ := .f32) (φ₂ := .f32) dot_S100000x96_S96x32_S100000x32_1_0_0_1_n_n none (concatenate S100000x96 1 [⟨S100000x32, Cert.KernelIdeal.Agg.wmean32pos (F := Ideal) (V0 (Proc.devRef .tc main_arg0)) (V0 (Proc.devRef .tc main_arg2)) (res_main_v62 V0)⟩, ⟨S100000x32, Cert.KernelIdeal.Agg.wmean32neg (F := Ideal) (V0 (Proc.devRef .tc main_arg1)) (V0 (Proc.devRef .tc main_arg3)) (res_main_v63 V0)⟩, ⟨S100000x32, (res_main_v62 V0)⟩] concatenates_S100000x32_S100000x32_S100000x32_S100000x96_d1) (V0 (Proc.devRef .tc main_arg9))) (broadcastInDim S100000x32 ![0, 1] bcast_S1x32_S100000x32_0_1 (broadcastInDim S1x32 ![1] bcast_S32_S1x32_1 (V0 (Proc.devRef .tc main_arg10))))

/-- The negative sign's. -/
def opN : Mat 100000 32 :=
  addf (F := Ideal) (φ := .f32) (Host.dotGeneral (F := Ideal) (φ₁ := .f32) (φ₂ := .f32) dot_S100000x96_S96x32_S100000x32_1_0_0_1_n_n none (concatenate S100000x96 1 [⟨S100000x32, Cert.KernelIdeal.Agg.wmean32pos (F := Ideal) (V0 (Proc.devRef .tc main_arg0)) (V0 (Proc.devRef .tc main_arg2)) (res_main_v63 V0)⟩, ⟨S100000x32, Cert.KernelIdeal.Agg.wmean32neg (F := Ideal) (V0 (Proc.devRef .tc main_arg1)) (V0 (Proc.devRef .tc main_arg3)) (res_main_v62 V0)⟩, ⟨S100000x32, (res_main_v63 V0)⟩] concatenates_S100000x32_S100000x32_S100000x32_S100000x96_d1) (V0 (Proc.devRef .tc main_arg11))) (broadcastInDim S100000x32 ![0, 1] bcast_S1x32_S100000x32_0_1 (broadcastInDim S1x32 ![1] bcast_S32_S1x32_1 (V0 (Proc.devRef .tc main_arg12))))

/-- The run's 64-wide second-layer array is the two signs side by side. -/
theorem second_eq : res_main_v174 V0
    = concatenate S100000x64 1 [⟨S100000x32, opP V0⟩, ⟨S100000x32, opN V0⟩] concatenates_S100000x32_S100000x32_S100000x64_d1 := rfl

theorem opP_apply (r : Fin 100000) (k : Fin 32) :
    opP V0 (ix2 r k) = lin3 (K := 32) rfl (row (Cert.KernelIdeal.Agg.wmean32pos (F := Ideal) (V0 (Proc.devRef .tc main_arg0)) (V0 (Proc.devRef .tc main_arg2)) (hidP (V0 (Proc.devRef .tc main_arg0)) (V0 (Proc.devRef .tc main_arg2)) (V0 (Proc.devRef .tc main_arg4)) (V0 (Proc.devRef .tc main_arg5)) (V0 (Proc.devRef .tc main_arg6))) : Mat 100000 32) r) (row (Cert.KernelIdeal.Agg.wmean32neg (F := Ideal) (V0 (Proc.devRef .tc main_arg1)) (V0 (Proc.devRef .tc main_arg3)) (hidN (V0 (Proc.devRef .tc main_arg1)) (V0 (Proc.devRef .tc main_arg3)) (V0 (Proc.devRef .tc main_arg4)) (V0 (Proc.devRef .tc main_arg7)) (V0 (Proc.devRef .tc main_arg8))) : Mat 100000 32) r)
      (row (hidP (V0 (Proc.devRef .tc main_arg0)) (V0 (Proc.devRef .tc main_arg2)) (V0 (Proc.devRef .tc main_arg4)) (V0 (Proc.devRef .tc main_arg5)) (V0 (Proc.devRef .tc main_arg6))) r) (V0 (Proc.devRef .tc main_arg9)) (V0 (Proc.devRef .tc main_arg10)) k := by
  refine (cat3_linear_apply (K := 32) rfl (Cert.KernelIdeal.Agg.wmean32pos (F := Ideal) (V0 (Proc.devRef .tc main_arg0)) (V0 (Proc.devRef .tc main_arg2)) (res_main_v62 V0)) (Cert.KernelIdeal.Agg.wmean32neg (F := Ideal) (V0 (Proc.devRef .tc main_arg1)) (V0 (Proc.devRef .tc main_arg3)) (res_main_v63 V0)) (res_main_v62 V0) (V0 (Proc.devRef .tc main_arg9)) (V0 (Proc.devRef .tc main_arg10))
    dot_S100000x96_S96x32_S100000x32_1_0_0_1_n_n rfl concatenates_S100000x32_S100000x32_S100000x32_S100000x96_d1
    bcast_S32_S1x32_1 bcast_S1x32_S100000x32_0_1 r k).trans ?_
  rw [first_pos, first_neg]

theorem opN_apply (r : Fin 100000) (k : Fin 32) :
    opN V0 (ix2 r k) = lin3 (K := 32) rfl (row (Cert.KernelIdeal.Agg.wmean32pos (F := Ideal) (V0 (Proc.devRef .tc main_arg0)) (V0 (Proc.devRef .tc main_arg2)) (hidN (V0 (Proc.devRef .tc main_arg1)) (V0 (Proc.devRef .tc main_arg3)) (V0 (Proc.devRef .tc main_arg4)) (V0 (Proc.devRef .tc main_arg7)) (V0 (Proc.devRef .tc main_arg8))) : Mat 100000 32) r) (row (Cert.KernelIdeal.Agg.wmean32neg (F := Ideal) (V0 (Proc.devRef .tc main_arg1)) (V0 (Proc.devRef .tc main_arg3)) (hidP (V0 (Proc.devRef .tc main_arg0)) (V0 (Proc.devRef .tc main_arg2)) (V0 (Proc.devRef .tc main_arg4)) (V0 (Proc.devRef .tc main_arg5)) (V0 (Proc.devRef .tc main_arg6))) : Mat 100000 32) r)
      (row (hidN (V0 (Proc.devRef .tc main_arg1)) (V0 (Proc.devRef .tc main_arg3)) (V0 (Proc.devRef .tc main_arg4)) (V0 (Proc.devRef .tc main_arg7)) (V0 (Proc.devRef .tc main_arg8))) r) (V0 (Proc.devRef .tc main_arg11)) (V0 (Proc.devRef .tc main_arg12)) k := by
  refine (cat3_linear_apply (K := 32) rfl (Cert.KernelIdeal.Agg.wmean32pos (F := Ideal) (V0 (Proc.devRef .tc main_arg0)) (V0 (Proc.devRef .tc main_arg2)) (res_main_v63 V0)) (Cert.KernelIdeal.Agg.wmean32neg (F := Ideal) (V0 (Proc.devRef .tc main_arg1)) (V0 (Proc.devRef .tc main_arg3)) (res_main_v62 V0)) (res_main_v63 V0) (V0 (Proc.devRef .tc main_arg11)) (V0 (Proc.devRef .tc main_arg12))
    dot_S100000x96_S96x32_S100000x32_1_0_0_1_n_n rfl concatenates_S100000x32_S100000x32_S100000x32_S100000x96_d1
    bcast_S32_S1x32_1 bcast_S1x32_S100000x32_0_1 r k).trans ?_
  rw [first_pos, first_neg]

/-! ## The result -/

/-- The reference's result term is the network of the launch contents. -/
theorem result_eq :
    (Host.tanh (F := Ideal) (φ := .f32) (addf (F := Ideal) (φ := .f32) (Host.dotGeneral (F := Ideal) (φ₁ := .f32) (φ₂ := .f32) dot_S100000x64_S64x64_S100000x64_1_0_0_1_n_n none (Host.tanh (F := Ideal) (φ := .f32) (res_main_v174 V0)) (V0 (Proc.devRef .tc main_arg13)))
        (broadcastInDim S100000x64 ![0, 1] bcast_S1x64_S100000x64_0_1 (broadcastInDim S1x64 ![1] bcast_S64_S1x64_1 (V0 (Proc.devRef .tc main_arg14))))) : Mat 100000 64)
      = net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  funext i
  obtain ⟨r, c, rfl⟩ : ∃ (r : Fin 100000) (c : Fin 64), i = ix2 r c := ⟨i 0, i 1, eq_ix2 i⟩
  rw [second_eq]
  refine (tanh_cat2_linear_apply (K := 32) rfl (opP V0) (opN V0) (V0 (Proc.devRef .tc main_arg13)) (V0 (Proc.devRef .tc main_arg14))
    dot_S100000x64_S64x64_S100000x64_1_0_0_1_n_n rfl concatenates_S100000x32_S100000x32_S100000x64_d1
    bcast_S64_S1x64_1 bcast_S1x64_S100000x64_0_1 r c).trans ?_
  rw [net_apply]
  refine congrArg Ideal.tanh ?_
  exact congrArg₂ (fun f g : Fin 32 → EReal => lin2 (K := 32) (Kw := 64) rfl f g (V0 (Proc.devRef .tc main_arg13)) (V0 (Proc.devRef .tc main_arg14)) c)
    (funext fun k => (congrArg Ideal.tanh (opP_apply V0 r k)).trans (hidden2row_apply _ _ _ _ _ k).symm)
    (funext fun k => (congrArg Ideal.tanh (opN_apply V0 r k)).trans (hidden2row_apply _ _ _ _ _ k).symm)

end Cert.ReferenceIdeal.RefNet

end
-- ==== Proof.lean ====
/-
  The certificate: a signed graph network whose per-node layers run in two accelerator kernels against the
  same network written with plain array operations.

  Both programs aggregate node features over the positive and the negative edges with the same host operations
  (a gather, a scatter-add, a division by a clamped weight sum). Between aggregations the kernels apply each
  linear layer to its inputs SEPARATELY, one band of the weight matrix per input, and add the products, 5000
  nodes per grid point; the reference lays the inputs side by side and multiplies once by the whole matrix. At
  exact values these agree entry by entry: the one sum over the side-by-side row splits into one sum per input.
  Only the commutativity and associativity of addition are used, so no entry needs to be finite, and the
  precondition is never opened.

  The frames of the two kernel programs are the generated ones; the reference's frame is its generated run with
  the result dropped. The idealization rewrote nothing, so there is nothing to preserve.
-/
import proofs.«120313_j78408922956333_1_alg».proof.Defs
import proofs.«120313_j78408922956333_1_alg».proof.Proof.Gen.Kernel
import proofs.«120313_j78408922956333_1_alg».proof.Proof.Gen.Kernel.Skeleton
import proofs.«120313_j78408922956333_1_alg».proof.Proof.Gen.Kernel.Launch
import proofs.«120313_j78408922956333_1_alg».proof.Proof.Gen.Kernel.Points
import proofs.«120313_j78408922956333_1_alg».proof.Proof.Gen.Kernel.Frame
import proofs.«120313_j78408922956333_1_alg».proof.Proof.Gen.KernelIdeal
import proofs.«120313_j78408922956333_1_alg».proof.Proof.Gen.KernelIdeal.Skeleton
import proofs.«120313_j78408922956333_1_alg».proof.Proof.Gen.KernelIdeal.Launch
import proofs.«120313_j78408922956333_1_alg».proof.Proof.Gen.KernelIdeal.Points
import proofs.«120313_j78408922956333_1_alg».proof.Proof.Gen.KernelIdeal.Frame
import proofs.«120313_j78408922956333_1_alg».proof.Proof.Gen.ReferenceIdeal
import proofs.«120313_j78408922956333_1_alg».proof.Proof.Gen.ReferenceIdeal.Run
import proofs.«120313_j78408922956333_1_alg».proof.Proof.Gen.Pre_finite_inputs
import proofs.«120313_j78408922956333_1_alg».proof.Proof.KernelRun
import proofs.«120313_j78408922956333_1_alg».proof.Proof.KernelValue
import proofs.«120313_j78408922956333_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the network of the launch contents in their result array, and the launch
    contents agree. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.NetValue.result_eq m ρ c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefNet.result_eq (Idealize.ShloMosaic.StableHlo.launchContents m' c)).trans ?_
    obtain ⟨h0, h1, h2, h3, h4, h5, h6, h7, h8, h9, h10, h11, h12, h13, h14⟩ := hagree c
    exact Cert.Net.net_congr h0 h1 h2 h3 h4 h5 h6 h7 h8 h9 h10 h11 h12 h13 h14

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
